-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x1x2048x2048 : Shape := ⟨4, ![4, 1, 2048, 2048]⟩
abbrev S1x1x2048x2048 : Shape := ⟨4, ![1, 1, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_arg4 : FVec F S4x1x2048x2048 .f32) (main_arg5 : FVec F S1x1x2048x2048 .f32) (main_arg6 : FVec F S4x1x2048x2048 .f32) (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  let main_v19 : FVec F S4x1x2048x2048 .f32 := Host.absf main_arg4
  let main_cst_6 : FVec F S_ .f32 := constant S_ .f32 0x7F800000#32
  let main_v20 : FVec F S4x1x2048x2048 .f32 := broadcastInDim S4x1x2048x2048 ![] bcast_S_S4x1x2048x2048 main_cst_6
  let main_v21 : IVec S4x1x2048x2048 1 := cmpf .olt main_v19 main_v20
  let main_c_7 : IVec S_ 1 := constantI S_ 1 1#1
  let main_v22 : IVec S_ 1 := (fun x v => Host.reduce IntOp.andi x v reducesTo_S4x1x2048x2048_S_d0_1_2_3 h_S_) main_v21 main_c_7
  let main_v23 : IVec S_ 1 := andi main_v18 main_v22
  let main_v24 : FVec F S1x1x2048x2048 .f32 := Host.absf main_arg5
  let main_cst_8 : FVec F S_ .f32 := constant S_ .f32 0x7F800000#32
  let main_v25 : FVec F S1x1x2048x2048 .f32 := broadcastInDim S1x1x2048x2048 ![] bcast_S_S1x1x2048x2048 main_cst_8
  let main_v26 : IVec S1x1x2048x2048 1 := cmpf .olt main_v24 main_v25
  let main_c_9 : IVec S_ 1 := constantI S_ 1 1#1
  let main_v27 : IVec S_ 1 := (fun x v => Host.reduce IntOp.andi x v reducesTo_S1x1x2048x2048_S_d0_1_2_3 h_S_) main_v26 main_c_9
  let main_v28 : IVec S_ 1 := andi main_v23 main_v27
  let main_v29 : FVec F S4x1x2048x2048 .f32 := Host.absf main_arg6
  let main_cst_10 : FVec F S_ .f32 := constant S_ .f32 0x7F800000#32
  let main_v30 : FVec F S4x1x2048x2048 .f32 := broadcastInDim S4x1x2048x2048 ![] bcast_S_S4x1x2048x2048 main_cst_10
  let main_v31 : IVec S4x1x2048x2048 1 := cmpf .olt main_v29 main_v30
  let main_c_11 : IVec S_ 1 := constantI S_ 1 1#1
  let main_v32 : IVec S_ 1 := (fun x v => Host.reduce IntOp.andi x v reducesTo_S4x1x2048x2048_S_d0_1_2_3 h_S_) main_v31 main_c_11
  let main_v33 : IVec S_ 1 := andi main_v28 main_v32
  main_v33

def fn {F : FTy → Type} [FloatOps F] (main_arg0 : FVec F S4x8x2048x64 .f32) (main_arg1 : FVec F S4x8x2048x64 .f32) (main_arg2 : FVec F S4x8x2048x64 .f32) (main_arg3 : FVec F S4x1x2048x2048 .f32) (main_arg4 : FVec F S4x1x2048x2048 .f32) (main_arg5 : FVec F S1x1x2048x2048 .f32) (main_arg6 : FVec F S4x1x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_arg4 main_arg5 main_arg6 main_v13 main_v16
-- ==== Kernel.lean ====
abbrev S4x8x2048x64 : Shape := ⟨4, ![4, 8, 2048, 64]⟩
abbrev S4x1x2048x2048 : Shape := ⟨4, ![4, 1, 2048, 2048]⟩
abbrev S1x1x2048x2048 : Shape := ⟨4, ![1, 1, 2048, 2048]⟩
abbrev S_ : Shape := ⟨0, ![]⟩
abbrev S4x8x2048x2048 : Shape := ⟨4, ![4, 8, 2048, 2048]⟩
abbrev S1x1x256x64 : Shape := ⟨4, ![1, 1, 256, 64]⟩
abbrev S1x8x2048x64 : Shape := ⟨4, ![1, 8, 2048, 64]⟩
abbrev S1x1x256x2048 : Shape := ⟨4, ![1, 1, 256, 2048]⟩
abbrev S256x64 : Shape := ⟨2, ![256, 64]⟩
abbrev S1x1x2048x64 : Shape := ⟨4, ![1, 1, 2048, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .f32⟩
  | .hbm, ⟨4, _⟩ => ⟨S4x1x2048x2048, .f32⟩
  | .hbm, ⟨5, _⟩ => ⟨S1x1x2048x2048, .f32⟩
  | .hbm, ⟨6, _⟩ => ⟨S4x1x2048x2048, .f32⟩
  | .hbm, ⟨7, _⟩ => ⟨S_, .f32⟩
  | .hbm, ⟨8, _⟩ => ⟨S4x1x2048x2048, .f32⟩
  | .hbm, ⟨9, _⟩ => ⟨S4x1x2048x2048, .f32⟩
  | .hbm, ⟨10, _⟩ => ⟨S_, .f32⟩
  | .hbm, ⟨11, _⟩ => ⟨S4x1x2048x2048, .f32⟩
  | .hbm, ⟨12, _⟩ => ⟨S4x1x2048x2048, .f32⟩
  | .hbm, ⟨13, _⟩ => ⟨S4x1x2048x2048, .f32⟩
  | .hbm, ⟨14, _⟩ => ⟨S_, .f32⟩
  | .hbm, ⟨15, _⟩ => ⟨S1x1x2048x2048, .f32⟩
  | .hbm, ⟨16, _⟩ => ⟨S1x1x2048x2048, .f32⟩
  | .hbm, ⟨17, _⟩ => ⟨S4x1x2048x2048, .f32⟩
  | .hbm, ⟨18, _⟩ => ⟨S4x1x2048x2048, .f32⟩
  | .hbm, ⟨19, _⟩ => ⟨S4x1x2048x2048, .f32⟩
  | .hbm, ⟨20, _⟩ => ⟨S4x8x2048x64, .f32⟩
  | .hbm, ⟨21, _⟩ => ⟨S4x8x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x8x2048x64, .f32⟩
  | .local _ .vmem, ⟨3, _⟩ => ⟨S1x8x2048x64, .f32⟩
  | .local _ .vmem, ⟨4, _⟩ => ⟨S1x8x2048x64, .f32⟩
  | .local _ .vmem, ⟨5, _⟩ => ⟨S1x8x2048x64, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x2048, .f32⟩
  | .local _ .vmem, ⟨11, _⟩ => ⟨S1x1x256x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 4 → Nat :=
  let c0_3 : Index := 0#32
  let arg2 : BitVec 32 := BitVec.ofNat 32 (i 2).val
  let v3 : Index := Scalar.indexCast arg2
  let c0_4 : Index := 0#32
  let c0_5 : Index := 0#32
  ![0, v3.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x8x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S_S4x1x2048x2048 : S_.BroadcastsInDim S4x1x2048x2048 (![] : Fin 0 → Fin S4x1x2048x2048.rank)
  bcast_S_S1x1x2048x2048 : S_.BroadcastsInDim S1x1x2048x2048 (![] : Fin 0 → Fin S1x1x2048x2048.rank)
  bcast_S1x1x2048x2048_S4x1x2048x2048_0_1_2_3 : S1x1x2048x2048.BroadcastsInDim S4x1x2048x2048 (![0, 1, 2, 3] : Fin 4 → Fin S4x1x2048x2048.rank)
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x1x2048x64.size a ≤ S1x8x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x8x2048x64.size a
  hwx0_0 : ∀ i : grid0.Coords, EltTy.bits .f32 = 32 ∨ (Rect.block (s := S4x8x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048x64.size a ≤ S4x8x2048x64.size a
  hwx0_1 : ∀ i : grid0.Coords, EltTy.bits .f32 = 32 ∨ (Rect.block (s := S4x8x2048x64) S1x8x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x2048x64.size a ≤ S4x8x2048x64.size a
  hwx0_2 : ∀ i : grid0.Coords, EltTy.bits .f32 = 32 ∨ (Rect.block (s := S4x8x2048x64) S1x8x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x1x2048x2048.size a
  hwx0_3 : ∀ i : grid0.Coords, EltTy.bits .f32 = 32 ∨ (Rect.block (s := S4x1x2048x2048) S1x1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x8x2048x64.size a
  hwx0_4 : ∀ i : grid0.Coords, EltTy.bits .f32 = 32 ∨ (Rect.block (s := S4x8x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S4x8x2048x2048.size a
  hwx0_5 : ∀ i : grid0.Coords, EltTy.bits .f32 = 32 ∨ (Rect.block (s := S4x8x2048x2048) S1x1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x1x2048x2048 : Shape := ⟨4, ![4, 1, 2048, 2048]⟩
abbrev S1x1x2048x2048 : Shape := ⟨4, ![1, 1, 2048, 2048]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .f32⟩
  | .hbm, ⟨4, _⟩ => ⟨S4x1x2048x2048, .f32⟩
  | .hbm, ⟨5, _⟩ => ⟨S1x1x2048x2048, .f32⟩
  | .hbm, ⟨6, _⟩ => ⟨S4x1x2048x2048, .f32⟩
  | .hbm, ⟨7, _⟩ => ⟨S_, .f32⟩
  | .hbm, ⟨8, _⟩ => ⟨S4x1x2048x2048, .f32⟩
  | .hbm, ⟨9, _⟩ => ⟨S4x1x2048x2048, .f32⟩
  | .hbm, ⟨10, _⟩ => ⟨S_, .f32⟩
  | .hbm, ⟨11, _⟩ => ⟨S4x1x2048x2048, .f32⟩
  | .hbm, ⟨12, _⟩ => ⟨S4x1x2048x2048, .f32⟩
  | .hbm, ⟨13, _⟩ => ⟨S4x1x2048x2048, .f32⟩
  | .hbm, ⟨14, _⟩ => ⟨S_, .f32⟩
  | .hbm, ⟨15, _⟩ => ⟨S1x1x2048x2048, .f32⟩
  | .hbm, ⟨16, _⟩ => ⟨S1x1x2048x2048, .f32⟩
  | .hbm, ⟨17, _⟩ => ⟨S4x1x2048x2048, .f32⟩
  | .hbm, ⟨18, _⟩ => ⟨S4x1x2048x2048, .f32⟩
  | .hbm, ⟨19, _⟩ => ⟨S_, .f32⟩
  | .hbm, ⟨20, _⟩ => ⟨S4x1x2048x2048, .f32⟩
  | .hbm, ⟨21, _⟩ => ⟨S4x1x2048x2048, .f32⟩
  | .hbm, ⟨22, _⟩ => ⟨S_, .f32⟩
  | .hbm, ⟨23, _⟩ => ⟨S4x8x2048x64, .f32⟩
  | .hbm, ⟨24, _⟩ => ⟨S4x8x2048x64, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S_, .f32⟩
  | .hbm, ⟨29, _⟩ => ⟨S4x8x2048, .f32⟩
  | .hbm, ⟨30, _⟩ => ⟨S4x8x2048, .f32⟩
  | .hbm, ⟨31, _⟩ => ⟨S4x8x2048x1, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x1x2048x2048, .f32⟩
  | .hbm, ⟨42, _⟩ => ⟨S4x1x2048x2048, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S4x8x2048x2048, .f32⟩
  | .hbm, ⟨47, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S4x1x2048x2048 : S_.BroadcastsInDim S4x1x2048x2048 (![] : Fin 0 → Fin S4x1x2048x2048.rank)
  bcast_S_S1x1x2048x2048 : S_.BroadcastsInDim S1x1x2048x2048 (![] : Fin 0 → Fin S1x1x2048x2048.rank)
  bcast_S1x1x2048x2048_S4x1x2048x2048_0_1_2_3 : S1x1x2048x2048.BroadcastsInDim S4x1x2048x2048 (![0, 1, 2, 3] : Fin 4 → Fin S4x1x2048x2048.rank)
  bcast_S_S4x8x2048x64 : S_.BroadcastsInDim S4x8x2048x64 (![] : Fin 0 → Fin S4x8x2048x64.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  bcast_S4x1x2048x2048_S4x8x2048x2048_0_1_2_3 : S4x1x2048x2048.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.GridFacts.lean ====
import proofs.«130810_j61770219651478_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.Attn.Grid

open Cert.KernelIdeal Cert.KernelIdeal.Gen

/-- The printed index maps, decided once over the 256 grid points (batch outermost, then the row block, the head
    innermost: point t is batch t / 64, row block t / 8 mod 8, head t mod 8): the attention block sits at
    (batch, head, row block, 0) and so do the query and output blocks; the weight block at (batch, 0, row block, 0); the
    key and value blocks at (batch, 0, 0, 0); and the head is the point's last coordinate. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = 0
      ∧ win0_1.index t (2 : Fin 4) = 0 ∧ win0_1.index t (3 : Fin 4) = 0)
    ∧ (win0_2.index t (0 : Fin 4) = win0_5.index t (0 : Fin 4) ∧ win0_2.index t (1 : Fin 4) = 0
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) = t.val / 64 ∧ win0_5.index t (1 : Fin 4) = t.val % 8
      ∧ win0_5.index t (2 : Fin 4) = t.val / 8 % 8 ∧ win0_5.index t (3 : Fin 4) = 0
      ∧ (grid0.coords t 2).val = win0_5.index t (1 : Fin 4)) :=
  (by decide +kernel : ∀ t : Fin grid0.N, _)

end Cert.Attn.Grid

end
-- ==== Proof.Pieces.lean ====
/-
  What one grid point's body leaves in its two output blocks, as values.

  The body loads the query block and the weight block whole, and of the per-batch key and value blocks (all eight heads,
  [1, 8, 2048, 64]) only the 2048 rows of ONE head, the head being the point's last grid coordinate. It stores the
  probability-times-weight tile whole into the attention block and the tile's product with the value rows whole into
  the output block; what it reads back from its own output blocks before storing is never used. So each output block
  ends holding one covering store's payload, a pure function of the query block, the head's key rows, the head's value
  rows and the weight block.
-/
import proofs.«130810_j61770219651478_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.Attn.Pieces

open Cert.KernelIdeal Cert.KernelIdeal.Gen

variable {F : FTy → Type} [FloatOps F]

theorem hz4 : (![0, 0, 0, 0] : Fin 4 → Nat) = fun _ => 0 := funext fun a => by fin_cases a <;> rfl

/-- The 2048 rows of the point's head, read out of a per-batch block holding all eight heads. -/
def headRows (i : grid0.Coords) (x : Vec F S1x8x2048x64 .f32) : Vec F S1x1x2048x64 .f32 :=
  View.ld x (Rect.unit (s := S1x8x2048x64) (k0_off1 i) S1x1x2048x64.size (k0_off1_inb i))

/-- Row r, column d of the head's rows is entry (0, h, r, d) of the block, h the point's last coordinate. -/
theorem headRows_apply (i : grid0.Coords) (x : Vec F S1x8x2048x64 .f32) (r : Fin 2048) (d : Fin 64) :
    headRows i x (ix4 0 0 r d) = x (ix4 0 (i 2) r d) := by
  show x _ = x _
  refine congrArg x (funext fun a => Fin.ext ?_)
  have h8 : (i 2).val < 8 := (i 2).isLt
  match a with
  | ⟨0, _⟩ => rfl
  | ⟨1, _⟩ =>
    show (BitVec.ofNat 32 (i 2).val).toNat + 1 * 0 = (i 2).val
    rw [BitVec.toNat_ofNat, Nat.mod_eq_of_lt (by omega)]
    omega
  | ⟨2, _⟩ => show 0 + 1 * r.val = r.val; omega
  | ⟨3, _⟩ => show 0 + 1 * d.val = d.val; omega

/-- The attention block after the body: the one covering store's payload. -/
theorem out5_eq (c : Dev nD) (i : grid0.Coords) (a3 : Memref sig .tc .vmem S1x1x256x64 .f32) (h3 : a3.IsWhole) (a4 : Memref sig .tc .vmem S1x8x2048x64 .f32) (h4 : a4.IsWhole) (a5 : Memref sig .tc .vmem S1x8x2048x64 .f32) (h5 : a5.IsWhole) (a6 : Memref sig .tc .vmem S1x1x256x2048 .f32) (h6 : a6.IsWhole) (a7 : Memref sig .tc .vmem S1x1x256x64 .f32) (h7 : a7.IsWhole) (a8 : Memref sig .tc .vmem S1x1x256x2048 .f32) (h8 : a8.IsWhole)
    (x0 : Vec F S1x1x256x64 .f32) (x1 : Vec F S1x8x2048x64 .f32) (x2 : Vec F S1x8x2048x64 .f32) (x3 : Vec F S1x1x256x2048 .f32) :
    out0_A_5 c i a3 h3 a4 h4 a5 h5 a6 h6 a7 h7 a8 h8 x0 x1 x2 x3 = k0_pay3 x0 (headRows i x1) x3 := by
  unfold out0_A_5
  rw [View.read_writes_eq_canon _ _ _ (cover0_A_5 c i a3 h3 a4 h4 a5 h5 a6 h6 a7 h7 a8 h8 x0 x1 x2 x3)]
  unfold kernelRun0_A
  dsimp only
  rw [View.canon_unit_zero hz4]
  simp only [View.readAt_eq_ld, h3.read_unread, h4.read_unread, h6.read_unread,
    View.ld_unit_zero (S := S1x1x256x64) hz4, View.ld_unit_zero (S := S1x1x256x2048) hz4]
  rfl

/-- The output block after the body: the one covering store's payload. -/
theorem out4_eq (c : Dev nD) (i : grid0.Coords) (a3 : Memref sig .tc .vmem S1x1x256x64 .f32) (h3 : a3.IsWhole) (a4 : Memref sig .tc .vmem S1x8x2048x64 .f32) (h4 : a4.IsWhole) (a5 : Memref sig .tc .vmem S1x8x2048x64 .f32) (h5 : a5.IsWhole) (a6 : Memref sig .tc .vmem S1x1x256x2048 .f32) (h6 : a6.IsWhole) (a7 : Memref sig .tc .vmem S1x1x256x64 .f32) (h7 : a7.IsWhole) (a8 : Memref sig .tc .vmem S1x1x256x2048 .f32) (h8 : a8.IsWhole)
    (x0 : Vec F S1x1x256x64 .f32) (x1 : Vec F S1x8x2048x64 .f32) (x2 : Vec F S1x8x2048x64 .f32) (x3 : Vec F S1x1x256x2048 .f32) :
    out0_A_4 c i a3 h3 a4 h4 a5 h5 a6 h6 a7 h7 a8 h8 x0 x1 x2 x3 = k0_pay1 (k0_pay4 x0 (headRows i x1) (headRows i x2) x3) := by
  unfold out0_A_4
  rw [View.read_writes_eq_canon _ _ _ (cover0_A_4 c i a3 h3 a4 h4 a5 h5 a6 h6 a7 h7 a8 h8 x0 x1 x2 x3)]
  unfold kernelRun0_A
  dsimp only
  sl_unfold_words
  rw [View.canon_unit_zero hz4]
  simp only [View.readAt_eq_ld, h3.read_unread, h4.read_unread, h5.read_unread, h6.read_unread,
    View.ld_unit_zero (S := S1x1x256x64) hz4, View.ld_unit_zero (S := S1x1x256x2048) hz4]
  rfl

end Cert.Attn.Pieces

end
-- ==== Proof.Spec.lean ====
/-
  Masked, decayed scaled-dot-product attention as two functions of the seven argument arrays, index by index, on
  the extended reals.

  For a batch b, a head h and a query row i, the scores against the 2048 key rows are s_j = ⟨q_i, k_j⟩ / 8; the softmax
  of the row is e^{s_j - m} / ∑_j' e^{s_j' - m} with m the row's maximum; each probability is then multiplied by the
  keep factor (1 - pad)(1 - sub)(1 - causal) of its position and by its decay coefficient; the output row is the
  weighted sum of the value rows. The two programs spell this in two ways. One scales the finished inner product by the
  word 1/8, folds the three masks and the decay into ONE weight before meeting the probability. The other divides the
  query by 8 before the inner product, passes through the complement 1 - (1 - keep), and multiplies by the decay last.
  Between finite inputs the two are the same real arithmetic.
-/
import Idealize.ShloMosaic.PureOps.Ideal
import Idealize.ShloMosaic.Lib.ValueIdx

noncomputable section

namespace Cert.Attn

open Idealize.ShloMosaic Idealize.ShloMosaic.ValueIdx

/-- The index types of the arrays: queries / keys / values / outputs, the batch-wise masks and decay, the causal mask,
    and the attention probabilities. -/
abbrev QIdx := (⟨4, ![4, 8, 2048, 64]⟩ : Shape).Idx
abbrev WIdx := (⟨4, ![4, 1, 2048, 2048]⟩ : Shape).Idx
abbrev CIdx := (⟨4, ![1, 1, 2048, 2048]⟩ : Shape).Idx
abbrev AIdx := (⟨4, ![4, 8, 2048, 2048]⟩ : Shape).Idx

/-- The float words the programs spell: 1, 1/8, 8 and -∞. -/
abbrev one : EReal := Ideal.ofBits .f32 0x3F800000#32
abbrev eighth : EReal := Ideal.ofBits .f32 0x3E000000#32
abbrev eight : EReal := Ideal.ofBits .f32 0x41000000#32
abbrev negInf : EReal := Ideal.ofBits .f32 0xFF800000#32

/-- The maximum of a row, as the fold of `max` from -∞. -/
def rowMax {n : ℕ} (s : Fin n → EReal) : EReal := (Finset.univ : Finset (Fin n)).fold max negInf s

/-- The softmax of a row of scores at position j: e^{s_j - m} over the sum of the e^{s_j' - m}, m the row's maximum. -/
def soft {n : ℕ} (s : Fin n → EReal) (j : Fin n) : EReal :=
  Ideal.div (Ideal.exp (s j - rowMax s)) (∑ j' : Fin n, Ideal.exp (s j' - rowMax s))

/-! ## Scaling the inner product; one folded weight -/

/-- The score of query row i against key row j: the inner product, then the factor 1/8. -/
def scoreK (q k : QIdx → EReal) (b : Fin 4) (h : Fin 8) (i j : Fin 2048) : EReal :=
  (∑ d : Fin 64, q (ix4 b h i d) * k (ix4 b h j d)) * eighth

/-- The folded weight of position (i, j) of batch b: the three keep factors and the decay. -/
def weightK (mp ms : WIdx → EReal) (mc : CIdx → EReal) (dc : WIdx → EReal) (b : Fin 4) (i j : Fin 2048) : EReal :=
  (((one - mp (ix4 b 0 i j)) * (one - ms (ix4 b 0 i j))) * (one - mc (ix4 0 0 i j))) * dc (ix4 b 0 i j)

def attnK (q k : QIdx → EReal) (mp ms : WIdx → EReal) (mc : CIdx → EReal) (dc : WIdx → EReal)
    (b : Fin 4) (h : Fin 8) (i j : Fin 2048) : EReal :=
  soft (scoreK q k b h i) j * weightK mp ms mc dc b i j

def outK (q k v : QIdx → EReal) (mp ms : WIdx → EReal) (mc : CIdx → EReal) (dc : WIdx → EReal)
    (b : Fin 4) (h : Fin 8) (i : Fin 2048) (d : Fin 64) : EReal :=
  ∑ j : Fin 2048, attnK q k mp ms mc dc b h i j * v (ix4 b h j d)

/-! ## Scaling the query; the complement of the mask, then the decay -/

/-- The score of query row i against key row j: the query divided by 8 first. -/
def scoreR (q k : QIdx → EReal) (b : Fin 4) (h : Fin 8) (i j : Fin 2048) : EReal :=
  ∑ d : Fin 64, Ideal.div (q (ix4 b h i d)) eight * k (ix4 b h j d)

/-- The keep factor of position (i, j) of batch b. -/
def keepR (mp ms : WIdx → EReal) (mc : CIdx → EReal) (b : Fin 4) (i j : Fin 2048) : EReal :=
  ((one - mp (ix4 b 0 i j)) * (one - ms (ix4 b 0 i j))) * (one - mc (ix4 0 0 i j))

def attnR (q k : QIdx → EReal) (mp ms : WIdx → EReal) (mc : CIdx → EReal) (dc : WIdx → EReal)
    (b : Fin 4) (h : Fin 8) (i j : Fin 2048) : EReal :=
  (soft (scoreR q k b h i) j * (one - (one - keepR mp ms mc b i j))) * dc (ix4 b 0 i j)

def outR (q k v : QIdx → EReal) (mp ms : WIdx → EReal) (mc : CIdx → EReal) (dc : WIdx → EReal)
    (b : Fin 4) (h : Fin 8) (i : Fin 2048) (d : Fin 64) : EReal :=
  ∑ j : Fin 2048, attnR q k mp ms mc dc b h i j * v (ix4 b h j d)

/-! ## As whole arrays -/

def attnKArr (q k : QIdx → EReal) (mp ms : WIdx → EReal) (mc : CIdx → EReal) (dc : WIdx → EReal) : AIdx → EReal :=
  fun x => attnK q k mp ms mc dc (x 0) (x 1) (x 2) (x 3)

def outKArr (q k v : QIdx → EReal) (mp ms : WIdx → EReal) (mc : CIdx → EReal) (dc : WIdx → EReal) : QIdx → EReal :=
  fun x => outK q k v mp ms mc dc (x 0) (x 1) (x 2) (x 3)

def attnRArr (q k : QIdx → EReal) (mp ms : WIdx → EReal) (mc : CIdx → EReal) (dc : WIdx → EReal) : AIdx → EReal :=
  fun x => attnR q k mp ms mc dc (x 0) (x 1) (x 2) (x 3)

def outRArr (q k v : QIdx → EReal) (mp ms : WIdx → EReal) (mc : CIdx → EReal) (dc : WIdx → EReal) : QIdx → EReal :=
  fun x => outR q k v mp ms mc dc (x 0) (x 1) (x 2) (x 3)

end Cert.Attn

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«130810_j61770219651478_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«130810_j61770219651478_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.Payload.lean ====
/-
  The values the attention body stores, read at an index, as functions of the blocks it loads.

  For one batch, one head and one block of 256 query rows the body holds a query block q (256 × 64), the key rows k
  and the value rows v of the head (2048 × 64 each) and a weight block w (256 × 2048).  It forms the scores
  s_{p,j} = ⟨q_p, k_j⟩ · (1/8), takes the softmax of each row — e^{s_{p,j} − m_p} / ∑_j' e^{s_{p,j'} − m_p} with m_p the
  row's maximum, folded from −∞ —, multiplies entrywise by the weight, and contracts the result with the value rows.
  Roundings to a shorter format are the identity on the extended reals, so nothing is lost on the way into a product.

  The tile is written here as a composition of four stages — scores, exponentials less the row maximum, row sums,
  quotient — each a function of the stage before it, and each stage is read at (p, j) by one small lemma over a
  variable tile.  The stored values then follow: the probability-times-weight tile at (p, j), the same tile under two
  leading unit axes, the contraction with the value rows at (p, d), and a [256, 64] tile under two leading unit axes.
-/
import proofs.«130810_j61770219651478_2_alg».proof.Proof.Gen.KernelIdeal.Skeleton
import proofs.«130810_j61770219651478_2_alg».proof.Proof.Spec
import proofs.«130810_j61770219651478_2_alg».proof.Proof.LibPlainDot
import proofs.«130810_j61770219651478_2_alg».proof.Proof.LibRowMax
import proofs.«130810_j61770219651478_2_alg».proof.Proof.LibRowSum
import proofs.«130810_j61770219651478_2_alg».proof.Proof.LibLayout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.Attn.Pay

open Cert.KernelIdeal Cert.KernelIdeal.Gen Idealize.ShloMosaic Idealize.ShloMosaic.ValueIdx

/-! ## Three layout operations read at an index -/

section Layout
variable {α : Type}

/-- A [1, 1, a, b] array with its two unit axes dropped: the entries are the same. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    rw [Nat.zero_mul, Nat.zero_add])

/-- An [a, b] array given two leading unit axes: the entries are the same, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv, Nat.zero_mul, Nat.zero_add])

/-- A column [a, 1] broadcast along its rows to [a, b]: entry (p, q) is the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The body's two contraction records are the plain M×K by K×N products. -/
theorem dot_scores_eq : dot_S256x64_S64x2048_S256x2048_1_0_0_1_n_n = DotDims.plain 256 64 2048 := rfl
theorem dot_out_eq : dot_S256x2048_S2048x64_S256x64_1_0_0_1_n_n = DotDims.plain 256 2048 64 := rfl

/-! ## The stages of the body, each a function of the one before -/

/-- The scores tile: the query block against the key rows, times the word 1/8. -/
def scoreTile (x0 : Vec Ideal S1x1x256x64 .f32) (x4 : Vec Ideal S1x1x2048x64 .f32) : FVec Ideal S256x2048 .f32 :=
  mulf
    (matmul dot_S256x64_S64x2048_S256x2048_1_0_0_1_n_n none
      (truncf .bf16 (shapeCast S256x64 x0 shapeCasts_S1x1x256x64_S256x64) bitsLt_bf16_f32)
      (transpose S64x2048 [1, 0] (truncf .bf16 (shapeCast S2048x64 x4 shapeCasts_S1x1x2048x64_S2048x64) bitsLt_bf16_f32)
        transposes_S2048x64_p1_0_S64x2048)
      (constant (F := Ideal) S256x2048 .f32 0x00000000#32))
    (broadcast S256x2048 (Scalar.ofBits (F := Ideal) .f32 0x3E000000#32))

/-- The row maxima of a tile, from -∞, as a tile constant along each row. -/
def rowMaxTile (s : FVec Ideal S256x2048 .f32) : FVec Ideal S256x2048 .f32 :=
  broadcastTo S256x2048
    (shapeCast S256x1 (multiReduction (F := Ideal) .maximumf [1] S256 s 0xFF800000#32 reduces_S256x2048_S256 (.inl rfl) rfl)
      shapeCasts_S256_S256x1)
    broadcasts_S256x1_S256x2048

/-- The exponentials of a tile's entries less their row's maximum. -/
def expTile (s : FVec Ideal S256x2048 .f32) : FVec Ideal S256x2048 .f32 := exp (subf s (rowMaxTile s))

/-- The row sums of a tile, as a tile constant along each row. -/
def rowSumTile (e : FVec Ideal S256x2048 .f32) : FVec Ideal S256x2048 .f32 :=
  broadcastTo S256x2048
    (shapeCast S256x1 (multiReduction (F := Ideal) .add [1] S256 e 0x00000000#32 reduces_S256x2048_S256 (.inl rfl) rfl)
      shapeCasts_S256_S256x1)
    broadcasts_S256x1_S256x2048

/-- The row-wise softmax of a tile. -/
def softTile (s : FVec Ideal S256x2048 .f32) : FVec Ideal S256x2048 .f32 := divf (expTile s) (rowSumTile (expTile s))

/-- The body's probability-times-weight tile is the softmax of the scores tile times the weight block. -/
theorem pay2_eq (x0 : Vec Ideal S1x1x256x64 .f32) (x4 : Vec Ideal S1x1x2048x64 .f32) (x24 : Vec Ideal S1x1x256x2048 .f32) :
    k0_pay2 (F := Ideal) x0 x4 x24
      = mulf (softTile (scoreTile x0 x4)) (shapeCast S256x2048 x24 shapeCasts_S1x1x256x2048_S256x2048) := rfl

/-! ## Each stage read at an index -/

/-- An entry of the scores tile: the inner product of query row p with key row j, times the word 1/8. -/
theorem scoreTile_apply (x0 : Vec Ideal S1x1x256x64 .f32) (x4 : Vec Ideal S1x1x2048x64 .f32) (p : Fin 256) (j : Fin 2048) :
    scoreTile x0 x4 (ix2 p j) = (∑ d : Fin 64, x0 (ix4 0 0 p d) * x4 (ix4 0 0 j d)) * Cert.Attn.eighth := by
  show matmul (DotDims.plain 256 64 2048) none _ _ (constant (F := Ideal) ⟨2, ![256, 2048]⟩ .f32 0x00000000#32) (ix2 p j)
      * Cert.Attn.eighth = _
  refine congrArg (· * Cert.Attn.eighth) ?_
  refine (Cert.PlainDot.matmul_zero_plain_apply none _ _ p j).trans ?_
  refine Finset.sum_congr rfl fun d _ => ?_
  refine congrArg₂ (· * ·) ?_ ?_
  · exact shapeCast_11ab_ab_apply x0 _ p d
  · exact (transpose_ix2_apply _ _ d j).trans (shapeCast_11ab_ab_apply x4 _ j d)

/-- The row-maximum tile at (p, j) is the maximum of row p. -/
theorem rowMaxTile_apply (s : FVec Ideal S256x2048 .f32) (p : Fin 256) (j : Fin 2048) :
    rowMaxTile s (ix2 p j) = Cert.Attn.rowMax (fun j' : Fin 2048 => s (ix2 p j')) :=
  (broadcastTo_a1_ab_apply _ _ p j).trans (Cert.Lib.RowMax.rowmax_column s _ _ _ _ p 0)

/-- The exponential tile at (p, j). -/
theorem expTile_apply (s : FVec Ideal S256x2048 .f32) (p : Fin 256) (j : Fin 2048) :
    expTile s (ix2 p j) = Ideal.exp (s (ix2 p j) - Cert.Attn.rowMax (fun j' : Fin 2048 => s (ix2 p j'))) := by
  show Ideal.exp (s (ix2 p j) - rowMaxTile s (ix2 p j)) = _
  rw [rowMaxTile_apply]

/-- The row-sum tile at (p, j) is the sum of row p. -/
theorem rowSumTile_apply (e : FVec Ideal S256x2048 .f32) (p : Fin 256) (j : Fin 2048) :
    rowSumTile e (ix2 p j) = ∑ k : Fin 2048, e (ix2 p k) :=
  (broadcastTo_a1_ab_apply _ _ p j).trans (Cert.Lib.RowSum.rowsum_column e _ _ _ _ p 0)

/-- The softmax tile at (p, j) is the softmax of row p at j. -/
theorem softTile_apply (s : FVec Ideal S256x2048 .f32) (p : Fin 256) (j : Fin 2048) :
    softTile s (ix2 p j) = Cert.Attn.soft (fun j' : Fin 2048 => s (ix2 p j')) j := by
  show Ideal.div (expTile s (ix2 p j)) (rowSumTile (expTile s) (ix2 p j)) = _
  rw [rowSumTile_apply, expTile_apply]
  exact congrArg (Ideal.div _) (Finset.sum_congr rfl fun k _ => expTile_apply s p k)

/-! ## The stored values -/

/-- The probability-times-weight tile at (p, j): the softmax of row p of the scores at j, times the weight. -/
theorem pay2_apply (x0 : Vec Ideal S1x1x256x64 .f32) (x4 : Vec Ideal S1x1x2048x64 .f32) (x24 : Vec Ideal S1x1x256x2048 .f32) (p : Fin 256) (j : Fin 2048) :
    k0_pay2 (F := Ideal) x0 x4 x24 (ix2 p j)
      = Cert.Attn.soft (fun j' : Fin 2048 => (∑ d : Fin 64, x0 (ix4 0 0 p d) * x4 (ix4 0 0 j' d)) * Cert.Attn.eighth) j * x24 (ix4 0 0 p j) := by
  rw [pay2_eq]
  show softTile (scoreTile x0 x4) (ix2 p j) * shapeCast S256x2048 x24 shapeCasts_S1x1x256x2048_S256x2048 (ix2 p j) = _
  rw [softTile_apply, shapeCast_11ab_ab_apply]
  exact congrArg (fun f => Cert.Attn.soft f j * x24 (ix4 0 0 p j)) (funext fun j' => scoreTile_apply x0 x4 p j')

/-- Under two leading unit axes the tile has the same entries. -/
theorem pay3_apply (x0 : Vec Ideal S1x1x256x64 .f32) (x4 : Vec Ideal S1x1x2048x64 .f32) (x24 : Vec Ideal S1x1x256x2048 .f32) (p : Fin 256) (j : Fin 2048) :
    k0_pay3 (F := Ideal) x0 x4 x24 (ix4 0 0 p j) = k0_pay2 (F := Ideal) x0 x4 x24 (ix2 p j) :=
  shapeCast_ab_11ab_apply (k0_pay2 (F := Ideal) x0 x4 x24) shapeCasts_S256x2048_S1x1x256x2048 0 0 p j

/-- The output tile at (p, d): row p of the probability-times-weight tile against column d of the value rows. -/
theorem pay4_apply (x0 : Vec Ideal S1x1x256x64 .f32) (x4 x8 : Vec Ideal S1x1x2048x64 .f32) (x24 : Vec Ideal S1x1x256x2048 .f32) (p : Fin 256) (d : Fin 64) :
    k0_pay4 (F := Ideal) x0 x4 x8 x24 (ix2 p d) = ∑ j : Fin 2048, k0_pay2 (F := Ideal) x0 x4 x24 (ix2 p j) * x8 (ix4 0 0 j d) := by
  show matmul (DotDims.plain 256 2048 64) none
      (truncf .bf16 (k0_pay2 (F := Ideal) x0 x4 x24) bitsLt_bf16_f32)
      (truncf .bf16 (shapeCast S2048x64 x8 shapeCasts_S1x1x2048x64_S2048x64) bitsLt_bf16_f32)
      (constant (F := Ideal) ⟨2, ![256, 64]⟩ .f32 0x00000000#32) (ix2 p d) = _
  refine (Cert.PlainDot.matmul_zero_plain_apply none _ _ p d).trans ?_
  exact Finset.sum_congr rfl fun j _ => congrArg (k0_pay2 (F := Ideal) x0 x4 x24 (ix2 p j) * ·) (shapeCast_11ab_ab_apply x8 _ j d)

/-- A [256, 64] tile under two leading unit axes has the same entries. -/
theorem pay1_apply (v31 : FVec Ideal S256x64 .f32) (p : Fin 256) (d : Fin 64) :
    k0_pay1 (F := Ideal) v31 (ix4 0 0 p d) = v31 (ix2 p d) :=
  shapeCast_ab_11ab_apply v31 shapeCasts_S256x64_S1x1x256x64 0 0 p d

end Cert.Attn.Pay

end
-- ==== Proof.SpecW.lean ====
/-
  The same attention with the folded weight taken as ONE given array w[b, 0, i, j]: what a grid point computes from the
  weight block it is handed. With w the product of the three keep factors and the decay it is the first spelling of
  the specification.
-/
import proofs.«130810_j61770219651478_2_alg».proof.Proof.Spec

noncomputable section

namespace Cert.Attn

open Idealize.ShloMosaic Idealize.ShloMosaic.ValueIdx

def attnW (q k : QIdx → EReal) (w : WIdx → EReal) (b : Fin 4) (h : Fin 8) (i j : Fin 2048) : EReal :=
  soft (scoreK q k b h i) j * w (ix4 b 0 i j)

def outW (q k v : QIdx → EReal) (w : WIdx → EReal) (b : Fin 4) (h : Fin 8) (i : Fin 2048) (d : Fin 64) : EReal :=
  ∑ j : Fin 2048, attnW q k w b h i j * v (ix4 b h j d)

def attnWArr (q k : QIdx → EReal) (w : WIdx → EReal) : AIdx → EReal :=
  fun x => attnW q k w (x 0) (x 1) (x 2) (x 3)

def outWArr (q k v : QIdx → EReal) (w : WIdx → EReal) : QIdx → EReal :=
  fun x => outW q k v w (x 0) (x 1) (x 2) (x 3)

/-- With the weight array the folded product, this is the first spelling. -/
theorem attnW_eq (q k : QIdx → EReal) (w : WIdx → EReal) (mp ms : WIdx → EReal) (mc : CIdx → EReal) (dc : WIdx → EReal)
    (hw : ∀ (b : Fin 4) (i j : Fin 2048), w (ix4 b 0 i j) = weightK mp ms mc dc b i j)
    (b : Fin 4) (h : Fin 8) (i j : Fin 2048) : attnW q k w b h i j = attnK q k mp ms mc dc b h i j := by
  unfold attnW attnK
  rw [hw]

theorem outW_eq (q k v : QIdx → EReal) (w : WIdx → EReal) (mp ms : WIdx → EReal) (mc : CIdx → EReal) (dc : WIdx → EReal)
    (hw : ∀ (b : Fin 4) (i j : Fin 2048), w (ix4 b 0 i j) = weightK mp ms mc dc b i j)
    (b : Fin 4) (h : Fin 8) (i : Fin 2048) (d : Fin 64) : outW q k v w b h i d = outK q k v mp ms mc dc b h i d := by
  unfold outW outK
  exact Finset.sum_congr rfl fun j _ => by rw [attnW_eq q k w mp ms mc dc hw b h i j]

theorem attnWArr_eq (q k : QIdx → EReal) (w : WIdx → EReal) (mp ms : WIdx → EReal) (mc : CIdx → EReal) (dc : WIdx → EReal)
    (hw : ∀ (b : Fin 4) (i j : Fin 2048), w (ix4 b 0 i j) = weightK mp ms mc dc b i j) :
    attnWArr q k w = attnKArr q k mp ms mc dc :=
  funext fun x => attnW_eq q k w mp ms mc dc hw (x 0) (x 1) (x 2) (x 3)

theorem outWArr_eq (q k v : QIdx → EReal) (w : WIdx → EReal) (mp ms : WIdx → EReal) (mc : CIdx → EReal) (dc : WIdx → EReal)
    (hw : ∀ (b : Fin 4) (i j : Fin 2048), w (ix4 b 0 i j) = weightK mp ms mc dc b i j) :
    outWArr q k v w = outKArr q k v mp ms mc dc :=
  funext fun x => outW_eq q k v w mp ms mc dc hw (x 0) (x 1) (x 2) (x 3)

end Cert.Attn

end
-- ==== Proof.Point.lean ====
/-
  One grid point, as values of the whole arrays.

  A point of batch b, head h and row block starting at row r0 is handed: the query block, whose row p is row r0 + p of
  (b, h); the per-batch key and value blocks, whose (h', r) row is row r of (b, h'); and the weight block, whose row p is
  row r0 + p of batch b. Then entry (p, j) of the tile it stores into the attention block is the specification's
  attention at (b, h, r0 + p, j), and entry (p, d) of the tile it stores into the output block is the specification's
  output at (b, h, r0 + p, d): the body's payloads read at an index, with each block entry replaced by the array entry
  it is.
-/
import proofs.«130810_j61770219651478_2_alg».proof.Proof.Gen.KernelIdeal.Skeleton
import proofs.«130810_j61770219651478_2_alg».proof.Proof.Pieces
import proofs.«130810_j61770219651478_2_alg».proof.Proof.Payload
import proofs.«130810_j61770219651478_2_alg».proof.Proof.SpecW
import Idealize.ShloMosaic.Lib.ValueIdx

noncomputable section

open Idealize.ShloMosaic Idealize.ShloMosaic.ValueIdx

namespace Cert.Attn.Point

open Cert.KernelIdeal Cert.KernelIdeal.Gen

/-- The probability-times-weight tile at (p, j) is the attention at (b, h, r0 + p, j). -/
theorem attn_tile (q k : QIdx → EReal) (w : WIdx → EReal)
    (x0 : Vec Ideal S1x1x256x64 .f32) (x1 : Vec Ideal S1x8x2048x64 .f32) (x3 : Vec Ideal S1x1x256x2048 .f32)
    (i : grid0.Coords) (b : Fin 4) (h : Fin 8) (r0 : ℕ) (hi : (i 2).val = h.val)
    (h0 : ∀ (p : Fin 256) (d : Fin 64) (r : Fin 2048), r.val = r0 + p.val → x0 (ix4 0 0 p d) = q (ix4 b h r d))
    (h1 : ∀ (h' : Fin 8) (r : Fin 2048) (d : Fin 64), x1 (ix4 0 h' r d) = k (ix4 b h' r d))
    (h3 : ∀ (p : Fin 256) (j : Fin 2048) (r : Fin 2048), r.val = r0 + p.val → x3 (ix4 0 0 p j) = w (ix4 b 0 r j))
    (p : Fin 256) (j : Fin 2048) (r : Fin 2048) (hr : r.val = r0 + p.val) :
    k0_pay2 (F := Ideal) x0 (Pieces.headRows i x1) x3 (ix2 p j) = attnW q k w b h r j := by
  have hh : (i 2 : Fin 8) = h := Fin.ext hi
  rw [Pay.pay2_apply]
  unfold attnW scoreK
  simp only [Pieces.headRows_apply, hh, h1, fun d => h0 p d r hr, h3 p j r hr]

/-- So is the attention block's stored value at (0, 0, p, j). -/
theorem attn_point (q k : QIdx → EReal) (w : WIdx → EReal)
    (x0 : Vec Ideal S1x1x256x64 .f32) (x1 : Vec Ideal S1x8x2048x64 .f32) (x3 : Vec Ideal S1x1x256x2048 .f32)
    (i : grid0.Coords) (b : Fin 4) (h : Fin 8) (r0 : ℕ) (hi : (i 2).val = h.val)
    (h0 : ∀ (p : Fin 256) (d : Fin 64) (r : Fin 2048), r.val = r0 + p.val → x0 (ix4 0 0 p d) = q (ix4 b h r d))
    (h1 : ∀ (h' : Fin 8) (r : Fin 2048) (d : Fin 64), x1 (ix4 0 h' r d) = k (ix4 b h' r d))
    (h3 : ∀ (p : Fin 256) (j : Fin 2048) (r : Fin 2048), r.val = r0 + p.val → x3 (ix4 0 0 p j) = w (ix4 b 0 r j))
    (p : Fin 256) (j : Fin 2048) (r : Fin 2048) (hr : r.val = r0 + p.val) :
    k0_pay3 (F := Ideal) x0 (Pieces.headRows i x1) x3 (ix4 0 0 p j) = attnW q k w b h r j :=
  (Pay.pay3_apply x0 (Pieces.headRows i x1) x3 p j).trans (attn_tile q k w x0 x1 x3 i b h r0 hi h0 h1 h3 p j r hr)

/-- The output block's stored value at (0, 0, p, d) is the output at (b, h, r0 + p, d). -/
theorem out_point (q k v : QIdx → EReal) (w : WIdx → EReal)
    (x0 : Vec Ideal S1x1x256x64 .f32) (x1 x2 : Vec Ideal S1x8x2048x64 .f32) (x3 : Vec Ideal S1x1x256x2048 .f32)
    (i : grid0.Coords) (b : Fin 4) (h : Fin 8) (r0 : ℕ) (hi : (i 2).val = h.val)
    (h0 : ∀ (p : Fin 256) (d : Fin 64) (r : Fin 2048), r.val = r0 + p.val → x0 (ix4 0 0 p d) = q (ix4 b h r d))
    (h1 : ∀ (h' : Fin 8) (r : Fin 2048) (d : Fin 64), x1 (ix4 0 h' r d) = k (ix4 b h' r d))
    (h2 : ∀ (h' : Fin 8) (r : Fin 2048) (d : Fin 64), x2 (ix4 0 h' r d) = v (ix4 b h' r d))
    (h3 : ∀ (p : Fin 256) (j : Fin 2048) (r : Fin 2048), r.val = r0 + p.val → x3 (ix4 0 0 p j) = w (ix4 b 0 r j))
    (p : Fin 256) (d : Fin 64) (r : Fin 2048) (hr : r.val = r0 + p.val) :
    k0_pay1 (F := Ideal) (k0_pay4 x0 (Pieces.headRows i x1) (Pieces.headRows i x2) x3) (ix4 0 0 p d) = outW q k v w b h r d := by
  have hh : (i 2 : Fin 8) = h := Fin.ext hi
  rw [Pay.pay1_apply, Pay.pay4_apply]
  unfold outW
  refine Finset.sum_congr rfl fun j _ => ?_
  rw [attn_tile q k w x0 x1 x3 i b h r0 hi h0 h1 h3 p j r hr, Pieces.headRows_apply, hh, h2]

end Cert.Attn.Point

end
-- ==== Proof.Cover.lean ====
/-
  The 256 grid points' output blocks cover the two output arrays.

  The grid is batch × row block × head, the head innermost: point t is batch t / 64, row block t / 8 mod 8, head t mod 8.
  Both output windows sit at block index (batch, head, row block, 0); a block is one batch, one head, 256 rows and every
  column. So the entry (b, h, r, ·) of either array lies in the block of the point b·64 + (r / 256)·8 + h, and every
  point writes its blocks back.
-/
import proofs.«130810_j61770219651478_2_alg».proof.Proof.Gen.KernelIdeal.Frame
import proofs.«130810_j61770219651478_2_alg».proof.Proof.GridFacts
import Idealize.ShloMosaic.Lib.Pipeline.Value

set_option maxRecDepth 16384

noncomputable section

namespace Cert.Attn.Cover

open Cert.KernelIdeal Cert.KernelIdeal.Gen Idealize.ShloMosaic

/-- An index of the attention array is in point t's block iff each coordinate is in the block's range on its axis. -/
theorem mem_blk5 (t : Fin cfg0.N) (i : S4x8x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v10_1).slice (win0_5.rect t)).set ↔ _
  rw [View.set_slice_whole, Rect.mem_set_unit]
  exact Iff.rfl

/-- An index of the output array is in point t's block iff each coordinate is in the block's range on its axis. -/
theorem mem_blk4 (t : Fin cfg0.N) (i : S4x8x2048x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v10_0).slice (win0_4.rect t)).set ↔ _
  rw [View.set_slice_whole, Rect.mem_set_unit]
  exact Iff.rfl

/-- Every entry (b, h, r, j) of the attention array is in the block of the point b·64 + (r / 256)·8 + h. -/
theorem cover5 (i : S4x8x2048x2048.Idx) : ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 2048 := (i 2).isLt
  have hi3 : (i 3).val < 2048 := (i 3).isLt
  have hN : cfg0.N = 256 := N_0
  obtain ⟨t, ht⟩ : ∃ t : Fin cfg0.N, t.val = (i 0).val * 64 + (i 2).val / 256 * 8 + (i 1).val :=
    ⟨⟨(i 0).val * 64 + (i 2).val / 256 * 8 + (i 1).val, by rw [hN]; omega⟩, rfl⟩
  obtain ⟨-, -, -, -, -, f0, f1, f2, f3, -⟩ := Cert.Attn.Grid.idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 2048 ≤ (i 3).val ∧ (i 3).val < win0_5.index t (3 : Fin 4) * 2048 + 2048; omega

/-- Every entry (b, h, r, d) of the output array is in the block of the point b·64 + (r / 256)·8 + h. -/
theorem cover4 (i : S4x8x2048x64.Idx) : ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 2048 := (i 2).isLt
  have hi3 : (i 3).val < 64 := (i 3).isLt
  have hN : cfg0.N = 256 := N_0
  obtain ⟨t, ht⟩ : ∃ t : Fin cfg0.N, t.val = (i 0).val * 64 + (i 2).val / 256 * 8 + (i 1).val :=
    ⟨⟨(i 0).val * 64 + (i 2).val / 256 * 8 + (i 1).val, by rw [hN]; omega⟩, rfl⟩
  obtain ⟨-, -, -, -, ⟨g0, g1, g2, g3⟩, f0, f1, f2, -, -⟩ := Cert.Attn.Grid.idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

end Cert.Attn.Cover

end
-- ==== Proof.WeightAt.lean ====
/-
  The folded weight computed on the host before the launch, read at an index.

  From the padding mask, the sub-sequence mask, the causal mask and the decay coefficients the host forms
  weight = (1 − pad) · (1 − sub) · (1 − causal) · decay, where the word 1 is spread from a scalar over each array and
  the causal factor, which has no batch axis, is repeated over the four batches.  A scalar spread over an array has the
  scalar at every index; an array with a unit leading axis repeated along that axis has, at batch b, its one member.  So
  at (b, 0, i, j) the weight is the product of the three keep factors and the decay of that position.
-/
import proofs.«130810_j61770219651478_2_alg».proof.KernelIdeal
import proofs.«130810_j61770219651478_2_alg».proof.Proof.Spec
import Idealize.ShloMosaic.Lib.ValueIdx
import Idealize.ShloMosaic.Lib.Pipeline.Value
import Idealize.ShloMosaic.PureOps.Ideal

noncomputable section

namespace Cert.Attn.WeightAt

open Cert.KernelIdeal Idealize.ShloMosaic Idealize.ShloMosaic.ValueIdx

variable [Cert.KernelIdeal.Facts]
open Cert.KernelIdeal.Facts₀

/-- The host prefix's result as one term of the four arguments. -/
def weightTerm (a3 a4 : FVec Ideal S4x1x2048x2048 .f32) (a5 : FVec Ideal S1x1x2048x2048 .f32) (a6 : FVec Ideal S4x1x2048x2048 .f32) : FVec Ideal S4x1x2048x2048 .f32 :=
  mulf (mulf (mulf
      (subf (broadcastInDim S4x1x2048x2048 ![] bcast_S_S4x1x2048x2048 (constant (F := Ideal) S_ .f32 0x3F800000#32)) a3)
      (subf (broadcastInDim S4x1x2048x2048 ![] bcast_S_S4x1x2048x2048 (constant (F := Ideal) S_ .f32 0x3F800000#32)) a4))
      (broadcastInDim S4x1x2048x2048 ![0, 1, 2, 3] bcast_S1x1x2048x2048_S4x1x2048x2048_0_1_2_3
        (subf (broadcastInDim S1x1x2048x2048 ![] bcast_S_S1x1x2048x2048 (constant (F := Ideal) S_ .f32 0x3F800000#32)) a5)))
      a6

/-- A scalar spread over an array has, at every index, the scalar's one entry. -/
theorem scalar_spread_apply {α : Type} {t : Shape} (dims : Fin S_.rank → Fin t.rank) (h : S_.BroadcastsInDim t dims)
    (c : S_.Idx → α) (x : t.Idx) : broadcastInDim t dims h c x = c ix0 :=
  broadcastInDim_apply dims h c x ix0 (fun a => a.elim0)

/-- The word 1 spread over an array: 1 at every index. -/
theorem ones_apply {t : Shape} (dims : Fin S_.rank → Fin t.rank) (h : S_.BroadcastsInDim t dims) (x : t.Idx) :
    broadcastInDim t dims h (constant (F := Ideal) S_ .f32 0x3F800000#32) x = Cert.Attn.one :=
  scalar_spread_apply dims h _ x

/-- A [1, 1, 2048, 2048] array repeated over four batches: at batch b it is its one member. -/
theorem batch_repeat_apply {α : Type} (y : S1x1x2048x2048.Idx → α) (b : Fin 4) (u : Fin 1) (i j : Fin 2048) :
    broadcastInDim S4x1x2048x2048 ![0, 1, 2, 3] bcast_S1x1x2048x2048_S4x1x2048x2048_0_1_2_3 y (ix4 b u i j)
      = y (ix4 0 0 i j) :=
  broadcastInDim_apply _ bcast_S1x1x2048x2048_S4x1x2048x2048_0_1_2_3 y (ix4 b u i j) (ix4 0 0 i j) (fun a => match a with
    | ⟨0, _⟩ => by show 0 = if (1 : Nat) = 1 then 0 else b.val; rw [if_pos rfl]
    | ⟨1, _⟩ => by show 0 = if (1 : Nat) = 1 then 0 else u.val; rw [if_pos rfl]
    | ⟨2, _⟩ => by show i.val = if (2048 : Nat) = 1 then 0 else i.val; rw [if_neg (by decide)]
    | ⟨3, _⟩ => by show j.val = if (2048 : Nat) = 1 then 0 else j.val; rw [if_neg (by decide)])

/-- The folded weight at (b, 0, i, j): the three keep factors and the decay of that position. -/
theorem weightTerm_apply (a3 a4 : FVec Ideal S4x1x2048x2048 .f32) (a5 : FVec Ideal S1x1x2048x2048 .f32) (a6 : FVec Ideal S4x1x2048x2048 .f32) (b : Fin 4) (i j : Fin 2048) :
    weightTerm a3 a4 a5 a6 (ix4 b 0 i j) = Cert.Attn.weightK a3 a4 a5 a6 b i j := by
  unfold weightTerm Cert.Attn.weightK
  rw [mulf_apply, mulf_apply, mulf_apply, subf_apply, subf_apply, batch_repeat_apply, subf_apply,
    ones_apply, ones_apply]

end Cert.Attn.WeightAt

end
-- ==== Proof.HostWeight.lean ====
import proofs.«130810_j61770219651478_2_alg».proof.Proof.Gen.KernelIdeal.Frame
import proofs.«130810_j61770219651478_2_alg».proof.Proof.WeightAt
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.Attn.HostWeight

open Cert.KernelIdeal Cert.KernelIdeal.Gen

variable (m : (ℓ : Loc nD τ sig) → Buf (Elt Ideal) ℓ)

/-- The weight array the launch finds is what the thirteen host operations before it compute from the three masks and
    the decay: (1 - pad) · (1 - sub) · (1 - causal, repeated over the batch) · decay. -/
theorem weight_found (c : Dev nD) :
    (V m c main_v9 : S4x1x2048x2048.Idx → EReal)
      = WeightAt.weightTerm (m ((c : Thread nD τ).loc main_arg3)) (m ((c : Thread nD τ).loc main_arg4))
          (m ((c : Thread nD τ).loc main_arg5)) (m ((c : Thread nD τ).loc main_arg6)) := by
  unfold WeightAt.weightTerm
  dsimp only [Gen.V, Gen.hostOps0]
  after_results

/-- Entry (b, 0, i, j) of it is the specification's folded weight of position (i, j) of batch b. -/
theorem weight_at (c : Dev nD) (b : Fin 4) (i j : Fin 2048) :
    V m c main_v9 (ix4 b 0 i j)
      = weightK (m ((c : Thread nD τ).loc main_arg3)) (m ((c : Thread nD τ).loc main_arg4))
          (m ((c : Thread nD τ).loc main_arg5)) (m ((c : Thread nD τ).loc main_arg6)) b i j :=
  (congrFun (weight_found m c) (ix4 b 0 i j)).trans (WeightAt.weightTerm_apply _ _ _ _ b i j)

end Cert.Attn.HostWeight

end
-- ==== Proof.Blocks.lean ====
/-
  From the 256 grid points' blocks to the two result arrays.

  Each point writes back one [256, 2048] block of the attention array and one [256, 64] block of the output array, both at
  (batch, head, row block). The blocks a point is handed are restrictions of the whole arrays — the query block of
  (batch, head) at the row block, the key and value blocks all eight heads of the batch, the weight block the batch's rows
  of the row block — so what it writes back is the restriction to its block of ONE function of the whole arrays: the
  specification's attention and output, with the folded weight the array the host computed before the launch. The
  blocks tile both arrays; so after the run each array IS that function, and with the weight array opened it is the
  specification's first spelling of the argument arrays.
-/
import proofs.«130810_j61770219651478_2_alg».proof.Proof.Gen.KernelIdeal.Value
import proofs.«130810_j61770219651478_2_alg».proof.Proof.GridFacts
import proofs.«130810_j61770219651478_2_alg».proof.Proof.Pieces
import proofs.«130810_j61770219651478_2_alg».proof.Proof.Point
import proofs.«130810_j61770219651478_2_alg».proof.Proof.SpecW
import proofs.«130810_j61770219651478_2_alg».proof.Proof.Cover
import proofs.«130810_j61770219651478_2_alg».proof.Proof.HostWeight
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Attn.Blocks

open Cert.KernelIdeal Cert.KernelIdeal.Gen

variable (m : (ℓ : Loc nD τ sig) → Buf (Elt Ideal) ℓ) (ρ : Dev nD → PrngReg)

/-- Row p of the query block at point t is row (row block)·256 + p of the point's batch and head. -/
theorem q_block (c : Dev nD) (t : Fin cfg0.N) (b : Fin 4) (h : Fin 8) (hb : b.val = win0_5.index t (0 : Fin 4))
    (hh : h.val = win0_5.index t (1 : Fin 4)) (p : Fin 256) (d : Fin 64) (r : Fin 2048)
    (hr : r.val = win0_5.index t (2 : Fin 4) * 256 + p.val) :
    iblk m c 0 t (ix4 0 0 p d) = V m c main_arg0 (ix4 b h r d) := by
  obtain ⟨⟨e0, e1, e2, e3⟩, -⟩ := Grid.idx_facts t
  show V m c main_arg0 (((cfg0.win 0).blk t).view.emb (ix4 0 0 p d)) = _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 256 + 1 * p.val = r.val; omega
  | ⟨3, _⟩ => show win0_0.index t (3 : Fin 4) * 64 + 1 * d.val = d.val; omega

/-- Row r of head h' of the key block at point t is that row of the point's batch. -/
theorem k_block (c : Dev nD) (t : Fin cfg0.N) (b : Fin 4) (hb : b.val = win0_5.index t (0 : Fin 4))
    (h' : Fin 8) (r : Fin 2048) (d : Fin 64) :
    iblk m c 1 t (ix4 0 h' r d) = V m c main_arg1 (ix4 b h' r d) := by
  obtain ⟨-, ⟨e0, e1, e2, e3⟩, -⟩ := Grid.idx_facts t
  show V m c main_arg1 (((cfg0.win 1).blk t).view.emb (ix4 0 h' r d)) = _
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 8 + 1 * h'.val = h'.val; omega
  | ⟨2, _⟩ => show win0_1.index t (2 : Fin 4) * 2048 + 1 * r.val = r.val; omega
  | ⟨3, _⟩ => show win0_1.index t (3 : Fin 4) * 64 + 1 * d.val = d.val; omega

/-- The same for the value block. -/
theorem v_block (c : Dev nD) (t : Fin cfg0.N) (b : Fin 4) (hb : b.val = win0_5.index t (0 : Fin 4))
    (h' : Fin 8) (r : Fin 2048) (d : Fin 64) :
    iblk m c 2 t (ix4 0 h' r d) = V m c main_arg2 (ix4 b h' r d) := by
  obtain ⟨-, -, ⟨e0, e1, e2, e3⟩, -⟩ := Grid.idx_facts t
  show V m c main_arg2 (((cfg0.win 2).blk t).view.emb (ix4 0 h' r d)) = _
  refine congrArg (V m c main_arg2) (funext fun a => Fin.ext ?_)
  match a with
  | ⟨0, _⟩ => show win0_2.index t (0 : Fin 4) * 1 + 1 * 0 = b.val; omega
  | ⟨1, _⟩ => show win0_2.index t (1 : Fin 4) * 8 + 1 * h'.val = h'.val; omega
  | ⟨2, _⟩ => show win0_2.index t (2 : Fin 4) * 2048 + 1 * r.val = r.val; omega
  | ⟨3, _⟩ => show win0_2.index t (3 : Fin 4) * 64 + 1 * d.val = d.val; omega

/-- Row p of the weight block at point t is row (row block)·256 + p of the point's batch. -/
theorem w_block (c : Dev nD) (t : Fin cfg0.N) (b : Fin 4) (hb : b.val = win0_5.index t (0 : Fin 4))
    (p : Fin 256) (j : Fin 2048) (r : Fin 2048) (hr : r.val = win0_5.index t (2 : Fin 4) * 256 + p.val) :
    iblk m c 3 t (ix4 0 0 p j) = V m c main_v9 (ix4 b 0 r j) := by
  obtain ⟨-, -, -, ⟨e0, e1, e2, e3⟩, -⟩ := Grid.idx_facts t
  show V m c main_v9 (((cfg0.win 3).blk t).view.emb (ix4 0 0 p j)) = _
  refine congrArg (V m c main_v9) (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 256 + 1 * p.val = r.val; omega
  | ⟨3, _⟩ => show win0_3.index t (3 : Fin 4) * 2048 + 1 * j.val = j.val; omega

/-- WHAT POINT t WRITES BACK to the attention array is block t of the specification's attention, of the arrays as the
    launch finds them. -/
theorem flushed5_eq (c : Dev nD) (t : Fin cfg0.N) :
    (dats m 0 c).flushed 5 t
      = ((cfg0.win 5).blk t).view.read (Elt Ideal) (attnWArr (V m c main_arg0) (V m c main_arg1) (V m c main_v9)) := by
  rw [Cert.KernelIdeal.Value.flushed5_A, Pieces.out5_eq]
  obtain ⟨-, -, -, -, -, f0, f1, f2, f3, fh⟩ := Grid.idx_facts t
  have hN : t.val < 256 := lt_of_lt_of_eq t.isLt N_0
  funext y
  have y0 : (y 0).val < 1 := (y 0).isLt
  have y1 : (y 1).val < 1 := (y 1).isLt
  have y2 : (y 2).val < 256 := (y 2).isLt
  have y3 : (y 3).val < 2048 := (y 3).isLt
  have hy : y = ix4 0 0 ⟨(y 2).val, y2⟩ ⟨(y 3).val, y3⟩ := funext fun a => Fin.ext (by
    match a with
    | ⟨0, _⟩ => show (y 0).val = 0; omega
    | ⟨1, _⟩ => show (y 1).val = 0; omega
    | ⟨2, _⟩ => rfl
    | ⟨3, _⟩ => rfl)
  have hemb : ((cfg0.win 5).blk t).view.emb y
      = ix4 (⟨t.val / 64, by omega⟩ : Fin 4) (⟨t.val % 8, by omega⟩ : Fin 8)
          (⟨t.val / 8 % 8 * 256 + (y 2).val, by omega⟩ : Fin 2048) (⟨(y 3).val, y3⟩ : Fin 2048) :=
    funext fun a => Fin.ext (by
      match a with
      | ⟨0, _⟩ => show win0_5.index t (0 : Fin 4) * 1 + 1 * (y 0).val = t.val / 64; omega
      | ⟨1, _⟩ => show win0_5.index t (1 : Fin 4) * 1 + 1 * (y 1).val = t.val % 8; omega
      | ⟨2, _⟩ => show win0_5.index t (2 : Fin 4) * 256 + 1 * (y 2).val = t.val / 8 % 8 * 256 + (y 2).val; omega
      | ⟨3, _⟩ => show win0_5.index t (3 : Fin 4) * 2048 + 1 * (y 3).val = (y 3).val; omega)
  have key := Point.attn_point (V m c main_arg0) (V m c main_arg1) (V m c main_v9)
    (iblk m c 0 t) (iblk m c 1 t) (iblk m c 3 t) (grid0.coords t)
    (⟨t.val / 64, by omega⟩ : Fin 4) (⟨t.val % 8, by omega⟩ : Fin 8) (win0_5.index t (2 : Fin 4) * 256) (fh.trans f1)
    (q_block m c t ⟨t.val / 64, by omega⟩ ⟨t.val % 8, by omega⟩ f0.symm f1.symm)
    (k_block m c t ⟨t.val / 64, by omega⟩ f0.symm)
    (w_block m c t ⟨t.val / 64, by omega⟩ f0.symm)
    ⟨(y 2).val, y2⟩ ⟨(y 3).val, y3⟩ (⟨t.val / 8 % 8 * 256 + (y 2).val, by omega⟩ : Fin 2048)
    (by show t.val / 8 % 8 * 256 + (y 2).val = win0_5.index t (2 : Fin 4) * 256 + (y 2).val; rw [f2])
  show k0_pay3 (F := Ideal) (iblk m c 0 t) (Pieces.headRows (grid0.coords t) (iblk m c 1 t)) (iblk m c 3 t) y
    = attnWArr (V m c main_arg0) (V m c main_arg1) (V m c main_v9) (((cfg0.win 5).blk t).view.emb y)
  have e1 := congrArg (k0_pay3 (F := Ideal) (iblk m c 0 t) (Pieces.headRows (grid0.coords t) (iblk m c 1 t)) (iblk m c 3 t)) hy
  refine e1.trans (key.trans ?_)
  rw [hemb]
  rfl

/-- WHAT POINT t WRITES BACK to the output array is block t of the specification's output. -/
theorem flushed4_eq (c : Dev nD) (t : Fin cfg0.N) :
    (dats m 0 c).flushed 4 t
      = ((cfg0.win 4).blk t).view.read (Elt Ideal)
          (outWArr (V m c main_arg0) (V m c main_arg1) (V m c main_arg2) (V m c main_v9)) := by
  rw [Cert.KernelIdeal.Value.flushed4_A, Pieces.out4_eq]
  obtain ⟨-, -, -, -, ⟨g0, g1, g2, g3⟩, f0, f1, f2, f3, fh⟩ := Grid.idx_facts t
  have hN : t.val < 256 := lt_of_lt_of_eq t.isLt N_0
  funext y
  have y0 : (y 0).val < 1 := (y 0).isLt
  have y1 : (y 1).val < 1 := (y 1).isLt
  have y2 : (y 2).val < 256 := (y 2).isLt
  have y3 : (y 3).val < 64 := (y 3).isLt
  have hy : y = ix4 0 0 ⟨(y 2).val, y2⟩ ⟨(y 3).val, y3⟩ := funext fun a => Fin.ext (by
    match a with
    | ⟨0, _⟩ => show (y 0).val = 0; omega
    | ⟨1, _⟩ => show (y 1).val = 0; omega
    | ⟨2, _⟩ => rfl
    | ⟨3, _⟩ => rfl)
  have hemb : ((cfg0.win 4).blk t).view.emb y
      = ix4 (⟨t.val / 64, by omega⟩ : Fin 4) (⟨t.val % 8, by omega⟩ : Fin 8)
          (⟨t.val / 8 % 8 * 256 + (y 2).val, by omega⟩ : Fin 2048) (⟨(y 3).val, y3⟩ : Fin 64) :=
    funext fun a => Fin.ext (by
      match a with
      | ⟨0, _⟩ => show win0_4.index t (0 : Fin 4) * 1 + 1 * (y 0).val = t.val / 64; omega
      | ⟨1, _⟩ => show win0_4.index t (1 : Fin 4) * 1 + 1 * (y 1).val = t.val % 8; omega
      | ⟨2, _⟩ => show win0_4.index t (2 : Fin 4) * 256 + 1 * (y 2).val = t.val / 8 % 8 * 256 + (y 2).val; omega
      | ⟨3, _⟩ => show win0_4.index t (3 : Fin 4) * 64 + 1 * (y 3).val = (y 3).val; omega)
  have key := Point.out_point (V m c main_arg0) (V m c main_arg1) (V m c main_arg2) (V m c main_v9)
    (iblk m c 0 t) (iblk m c 1 t) (iblk m c 2 t) (iblk m c 3 t) (grid0.coords t)
    (⟨t.val / 64, by omega⟩ : Fin 4) (⟨t.val % 8, by omega⟩ : Fin 8) (win0_5.index t (2 : Fin 4) * 256) (fh.trans f1)
    (q_block m c t ⟨t.val / 64, by omega⟩ ⟨t.val % 8, by omega⟩ f0.symm f1.symm)
    (k_block m c t ⟨t.val / 64, by omega⟩ f0.symm)
    (v_block m c t ⟨t.val / 64, by omega⟩ f0.symm)
    (w_block m c t ⟨t.val / 64, by omega⟩ f0.symm)
    ⟨(y 2).val, y2⟩ ⟨(y 3).val, y3⟩ (⟨t.val / 8 % 8 * 256 + (y 2).val, by omega⟩ : Fin 2048)
    (by show t.val / 8 % 8 * 256 + (y 2).val = win0_5.index t (2 : Fin 4) * 256 + (y 2).val; rw [f2])
  show k0_pay1 (F := Ideal) (k0_pay4 (iblk m c 0 t) (Pieces.headRows (grid0.coords t) (iblk m c 1 t))
      (Pieces.headRows (grid0.coords t) (iblk m c 2 t)) (iblk m c 3 t)) y
    = outWArr (V m c main_arg0) (V m c main_arg1) (V m c main_arg2) (V m c main_v9) (((cfg0.win 4).blk t).view.emb y)
  have e1 := congrArg (k0_pay1 (F := Ideal) (k0_pay4 (iblk m c 0 t) (Pieces.headRows (grid0.coords t) (iblk m c 1 t))
      (Pieces.headRows (grid0.coords t) (iblk m c 2 t)) (iblk m c 3 t))) hy
  refine e1.trans (key.trans ?_)
  rw [hemb]
  rfl

/-- THE ATTENTION ARRAY after the run: the specification's attention, first spelling, of the argument arrays. -/
theorem final5 (c : Dev nD) :
    (dats m 0 c).arrAt 5 cfg0.N
      = attnKArr (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  refine ((dats m 0 c).arrAt_eq_of_cover 5 _ (fun t _ => flushed5_eq m c t) Cover.cover5).trans ?_
  rw [V_main_arg0, V_main_arg1]
  exact attnWArr_eq _ _ _ _ _ _ _ (HostWeight.weight_at m c)

/-- THE OUTPUT ARRAY after the run: the specification's output, first spelling, of the argument arrays. -/
theorem final4 (c : Dev nD) :
    (dats m 0 c).arrAt 4 cfg0.N
      = outKArr (m ((c : Thread nD τ).loc main_arg0)) (m ((c : Thread nD τ).loc main_arg1))
          (m ((c : Thread nD τ).loc main_arg2))
          (m ((c : Thread nD τ).loc main_arg3)) (m ((c : Thread nD τ).loc main_arg4))
          (m ((c : Thread nD τ).loc main_arg5)) (m ((c : Thread nD τ).loc main_arg6)) := by
  refine ((dats m 0 c).arrAt_eq_of_cover 4 _ (fun t _ => flushed4_eq m c t) Cover.cover4).trans ?_
  rw [V_main_arg0, V_main_arg1, V_main_arg2]
  exact outWArr_eq _ _ _ _ _ _ _ _ (HostWeight.weight_at m c)

/-- The kernel's run, read: both result arrays at the specification's first spelling of the argument arrays, the
    arguments unchanged. -/
theorem run : θ_run defs (onTc (τ := τ) (main (F := Ideal))) ⟨m, fun _ => 0, ρ⟩ fun r => ∀ c : Dev nD,
      r.2.mem ((c : Thread nD τ).loc main_v10_0)
        = outKArr (m ((c : Thread nD τ).loc main_arg0)) (m ((c : Thread nD τ).loc main_arg1))
            (m ((c : Thread nD τ).loc main_arg2))
            (m ((c : Thread nD τ).loc main_arg3)) (m ((c : Thread nD τ).loc main_arg4))
            (m ((c : Thread nD τ).loc main_arg5)) (m ((c : Thread nD τ).loc main_arg6))
      ∧ r.2.mem ((c : Thread nD τ).loc main_v10_1)
        = attnKArr (m ((c : Thread nD τ).loc main_arg0)) (m ((c : Thread nD τ).loc main_arg1))
            (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final4 m c), (h c).2.1.trans (final5 m c), (h c).2.2⟩)
    (Cert.KernelIdeal.Value.run_blocks m ρ)

end Cert.Attn.Blocks

end
-- ==== Proof.RefSpec.lean ====
/-
  The reference program's two results are the specification's reference-spelling functions.

  The program is read one stage at a time, each stage at an index given by its coordinates (b, h, r, j): the keep
  factor's double complement 1 - (1 - keep), the scores ⟨q_r / 8, k_j⟩, the row maximum (a fold of max from -∞,
  then once more max with -∞, which changes nothing), the exponentials, the row sum (0 + ∑), the quotient, the two
  products, and last the weighted sum of the value rows.
-/
import proofs.«130810_j61770219651478_2_alg».proof.Proof.Spec
import proofs.«130810_j61770219651478_2_alg».proof.Proof.Gen.ReferenceIdeal.Read
import Idealize.ShloMosaic.Lib.ValueIdx
import Idealize.ShloMosaic.PureOps.Ideal
import Idealize.ShloMosaic.PureOps.Ideal.Laws
import Idealize.ShloMosaic.PureOps.Reduce

noncomputable section

namespace Cert.Attn.Ref

open Cert.ReferenceIdeal Idealize.ShloMosaic Idealize.ShloMosaic.ValueIdx

/-! ## The stages' index functions at coordinates -/

theorem idx_v27 (b : Fin 4) (h : Fin 8) (r j : Fin 2048) :
    Read.idx_main_v27 (ix4 b h r j) = ix4 b (0 : Fin 1) r j :=
  funext fun a => Fin.ext (by match a with | ⟨0, _⟩ => rfl | ⟨1, _⟩ => rfl | ⟨2, _⟩ => rfl | ⟨3, _⟩ => rfl)

theorem idx_v29 (b : Fin 4) (h : Fin 8) (r j : Fin 2048) :
    Read.idx_main_v29 (ix4 b h r j) = ix4 b (0 : Fin 1) r j :=
  funext fun a => Fin.ext (by match a with | ⟨0, _⟩ => rfl | ⟨1, _⟩ => rfl | ⟨2, _⟩ => rfl | ⟨3, _⟩ => rfl)

theorem idx_v7 (b : Fin 4) (u : Fin 1) (r j : Fin 2048) :
    Read.idx_main_v7 (ix4 b u r j) = ix4 (0 : Fin 1) (0 : Fin 1) r j :=
  funext fun a => Fin.ext (by match a with | ⟨0, _⟩ => rfl | ⟨1, _⟩ => rfl | ⟨2, _⟩ => rfl | ⟨3, _⟩ => rfl)

/-! ## The keep factor, complemented twice -/

/-- Stage 27 at (b, h, r, j): 1 - (1 - keep), the keep factor of (b, r, j). -/
theorem v27_at (x3 x4 : (⟨S4x1x2048x2048, .f32⟩ : BufTy).Contents (Elt Ideal))
    (x5 : (⟨S1x1x2048x2048, .f32⟩ : BufTy).Contents (Elt Ideal)) (b : Fin 4) (h : Fin 8) (r j : Fin 2048) :
    Read.val_main_v27 (F := Ideal) x3 x4 x5 (ix4 b h r j) = one - (one - keepR x3 x4 x5 b r j) := by
  rw [Read.val_main_v27_apply, idx_v27, Read.val_main_v26_apply, Read.val_main_v25_apply, Read.val_main_cst_7_apply,
    Read.val_main_v10_apply, Read.val_main_v9_apply, Read.val_main_cst_2_apply, Read.val_main_v8_apply,
    Read.val_main_v4_apply, Read.val_main_v1_apply, Read.val_main_v0_apply, Read.val_main_cst_apply,
    Read.val_main_v3_apply, Read.val_main_v2_apply, Read.val_main_cst_0_apply, Read.val_main_v7_apply, idx_v7,
    Read.val_main_v6_apply, Read.val_main_v5_apply, Read.val_main_cst_1_apply]
  rfl

/-! ## The scores -/

theorem lidx_v13 (b : Fin 4) (h : Fin 8) (r j : Fin 2048) (k : Fin 64) :
    Read.lidx_main_v13 (ix4 b h r j) k = ix4 b h r k :=
  funext fun a => Fin.ext (by match a with | ⟨0, _⟩ => rfl | ⟨1, _⟩ => rfl | ⟨2, _⟩ => rfl | ⟨3, _⟩ => rfl)

theorem ridx_v13 (b : Fin 4) (h : Fin 8) (r j : Fin 2048) (k : Fin 64) :
    Read.ridx_main_v13 (ix4 b h r j) k = ix4 b h j k :=
  funext fun a => Fin.ext (by match a with | ⟨0, _⟩ => rfl | ⟨1, _⟩ => rfl | ⟨2, _⟩ => rfl | ⟨3, _⟩ => rfl)

/-- Stage 13 at (b, h, r, j): the inner product of the query row r divided by 8 with the key row j. -/
theorem v13_at (x0 x1 : (⟨S4x8x2048x64, .f32⟩ : BufTy).Contents (Elt Ideal)) (b : Fin 4) (h : Fin 8) (r j : Fin 2048) :
    Read.val_main_v13 (F := Ideal) x0 x1 (ix4 b h r j) = scoreR x0 x1 b h r j := by
  rw [Read.val_main_v13_apply]
  unfold scoreR
  refine Finset.sum_congr rfl fun k _ => ?_
  rw [lidx_v13, ridx_v13, Read.val_main_v12_apply, Read.val_main_v11_apply, Read.val_main_cst_3_apply]
  rfl

/-! ## The row maximum -/

/-- The maximum of a fold's own start value with the fold is the fold. -/
theorem max_fold_start {ι : Type*} (s : Finset ι) (c : EReal) (f : ι → EReal) :
    max c (s.fold max c f) = s.fold max c f :=
  max_eq_right ((Finset.le_fold_max c).mpr (Or.inl le_rfl))

/-- The reduced index (b, h, r) with the coordinate k put back on the last axis is (b, h, r, k). -/
theorem lift_ix3 (hred : S4x8x2048x2048.Reduces [3] S4x8x2048) (b : Fin 4) (h : Fin 8) (r : Fin 2048)
    (k : Fin (S4x8x2048x2048.size 3)) : hred.lift (ix3 b h r) k = ix4 b h r (⟨k.val, k.isLt⟩ : Fin 2048) := by
  funext c; apply Fin.ext
  rw [hred.lift_val]
  match c with
  | ⟨0, _⟩ => rfl
  | ⟨1, _⟩ => rfl
  | ⟨2, _⟩ => rfl
  | ⟨3, _⟩ => rfl

/-- Stage 14 at (b, h, r): the fold of max from -∞ over the scores of the row. -/
theorem v14_at (x0 x1 : (⟨S4x8x2048x64, .f32⟩ : BufTy).Contents (Elt Ideal)) (b : Fin 4) (h : Fin 8) (r : Fin 2048) :
    Read.val_main_v14 (F := Ideal) x0 x1 (ix3 b h r) = rowMax (scoreR x0 x1 b h r) := by
  have hred : S4x8x2048x2048.Reduces [3] S4x8x2048 := by decide
  unfold Read.val_main_v14
  refine (Host.reduce_eq_fold_single (α := Ideal .f32) (s := S4x8x2048x2048) (t := S4x8x2048) (a := 3)
    FloatOps.maximumf (Read.val_main_v13 (F := Ideal) x0 x1) (Read.val_main_cst_4 (F := Ideal)) _ hred _ (ix3 b h r)).trans ?_
  rw [Read.val_main_cst_4_apply]
  unfold rowMax
  have hf : (Read.val_main_v13 (F := Ideal) x0 x1 ∘ hred.lift (ix3 b h r)) = fun k : Fin 2048 => scoreR x0 x1 b h r k :=
    funext fun k => (congrArg (Read.val_main_v13 (F := Ideal) x0 x1) (lift_ix3 hred b h r k)).trans (v13_at x0 x1 b h r _)
  exact congrArg (fun f => Finset.fold max negInf f (Finset.univ : Finset (Fin 2048))) hf

/-- Stage 16 at (b, h, r): the maximum of -∞ with the row maximum, which is the row maximum. -/
theorem v16_at (x0 x1 : (⟨S4x8x2048x64, .f32⟩ : BufTy).Contents (Elt Ideal)) (b : Fin 4) (h : Fin 8) (r : Fin 2048) :
    Read.val_main_v16 (F := Ideal) x0 x1 (ix3 b h r) = rowMax (scoreR x0 x1 b h r) := by
  rw [Read.val_main_v16_apply, Read.val_main_v15_apply, Read.val_main_cst_5_apply, v14_at]
  exact max_fold_start _ negInf _

/-! ## The row maximum and the row sum spread back over the row -/

theorem idx_v18 (b : Fin 4) (h : Fin 8) (r j : Fin 2048) :
    Read.idx_main_v18 (ix4 b h r j) = ix4 b h r (0 : Fin 1) :=
  funext fun a => Fin.ext (by match a with | ⟨0, _⟩ => rfl | ⟨1, _⟩ => rfl | ⟨2, _⟩ => rfl | ⟨3, _⟩ => rfl)

theorem idx_v17 (b : Fin 4) (h : Fin 8) (r : Fin 2048) (u : Fin 1) :
    Read.idx_main_v17 (ix4 b h r u) = ix3 b h r :=
  funext fun a => Fin.ext (by match a with | ⟨0, _⟩ => rfl | ⟨1, _⟩ => rfl | ⟨2, _⟩ => rfl)

theorem idx_v23 (b : Fin 4) (h : Fin 8) (r j : Fin 2048) :
    Read.idx_main_v23 (ix4 b h r j) = ix4 b h r (0 : Fin 1) :=
  funext fun a => Fin.ext (by match a with | ⟨0, _⟩ => rfl | ⟨1, _⟩ => rfl | ⟨2, _⟩ => rfl | ⟨3, _⟩ => rfl)

theorem idx_v22 (b : Fin 4) (h : Fin 8) (r : Fin 2048) (u : Fin 1) :
    Read.idx_main_v22 (ix4 b h r u) = ix3 b h r :=
  funext fun a => Fin.ext (by match a with | ⟨0, _⟩ => rfl | ⟨1, _⟩ => rfl | ⟨2, _⟩ => rfl)

theorem idx_v21 (b : Fin 4) (h : Fin 8) (r : Fin 2048) (k : Fin 2048) :
    Read.idx_main_v21 (ix3 b h r) k = ix4 b h r k :=
  funext fun a => Fin.ext (by match a with | ⟨0, _⟩ => rfl | ⟨1, _⟩ => rfl | ⟨2, _⟩ => rfl | ⟨3, _⟩ => rfl)

/-- Stage 18 at (b, h, r, j): the row maximum of (b, h, r), at every j. -/
theorem v18_at (x0 x1 : (⟨S4x8x2048x64, .f32⟩ : BufTy).Contents (Elt Ideal)) (b : Fin 4) (h : Fin 8) (r j : Fin 2048) :
    Read.val_main_v18 (F := Ideal) x0 x1 (ix4 b h r j) = rowMax (scoreR x0 x1 b h r) := by
  rw [Read.val_main_v18_apply, idx_v18, Read.val_main_v17_apply, idx_v17, v16_at]

/-! ## The exponentials, their sum, the quotient -/

/-- Stage 20 at (b, h, r, j): e to the score less the row maximum. -/
theorem v20_at (x0 x1 : (⟨S4x8x2048x64, .f32⟩ : BufTy).Contents (Elt Ideal)) (b : Fin 4) (h : Fin 8) (r j : Fin 2048) :
    Read.val_main_v20 (F := Ideal) x0 x1 (ix4 b h r j)
      = Ideal.exp (scoreR x0 x1 b h r j - rowMax (scoreR x0 x1 b h r)) := by
  rw [Read.val_main_v20_apply, Read.val_main_v19_apply, v13_at, v18_at]
  rfl

/-- Stage 21 at (b, h, r): zero plus the sum of the row's exponentials, which is the sum. -/
theorem v21_at (x0 x1 : (⟨S4x8x2048x64, .f32⟩ : BufTy).Contents (Elt Ideal)) (b : Fin 4) (h : Fin 8) (r : Fin 2048) :
    Read.val_main_v21 (F := Ideal) x0 x1 (ix3 b h r)
      = ∑ j' : Fin 2048, Ideal.exp (scoreR x0 x1 b h r j' - rowMax (scoreR x0 x1 b h r)) := by
  rw [Read.val_main_v21_apply, Read.val_main_cst_6_apply, Ideal.ofBits_def, Ideal.ofBits_zero_f32, zero_add]
  exact Finset.sum_congr rfl fun k _ => by rw [idx_v21, v20_at]

/-- Stage 23 at (b, h, r, j): the row sum of (b, h, r), at every j. -/
theorem v23_at (x0 x1 : (⟨S4x8x2048x64, .f32⟩ : BufTy).Contents (Elt Ideal)) (b : Fin 4) (h : Fin 8) (r j : Fin 2048) :
    Read.val_main_v23 (F := Ideal) x0 x1 (ix4 b h r j)
      = ∑ j' : Fin 2048, Ideal.exp (scoreR x0 x1 b h r j' - rowMax (scoreR x0 x1 b h r)) := by
  rw [Read.val_main_v23_apply, idx_v23, Read.val_main_v22_apply, idx_v22, v21_at]

/-- Stage 24 at (b, h, r, j): the softmax of the row of scores, at j. -/
theorem v24_at (x0 x1 : (⟨S4x8x2048x64, .f32⟩ : BufTy).Contents (Elt Ideal)) (b : Fin 4) (h : Fin 8) (r j : Fin 2048) :
    Read.val_main_v24 (F := Ideal) x0 x1 (ix4 b h r j) = soft (scoreR x0 x1 b h r) j := by
  rw [Read.val_main_v24_apply, v20_at, v23_at]
  rfl

/-! ## The attention probabilities and the output -/

/-- Stage 30 at (b, h, r, j): the softmax times the twice-complemented keep factor, times the decay. -/
theorem v30_at (x0 x1 : (⟨S4x8x2048x64, .f32⟩ : BufTy).Contents (Elt Ideal))
    (x3 x4 : (⟨S4x1x2048x2048, .f32⟩ : BufTy).Contents (Elt Ideal))
    (x5 : (⟨S1x1x2048x2048, .f32⟩ : BufTy).Contents (Elt Ideal))
    (x6 : (⟨S4x1x2048x2048, .f32⟩ : BufTy).Contents (Elt Ideal)) (b : Fin 4) (h : Fin 8) (r j : Fin 2048) :
    Read.val_main_v30 (F := Ideal) x0 x1 x3 x4 x5 x6 (ix4 b h r j) = attnR x0 x1 x3 x4 x5 x6 b h r j := by
  rw [Read.val_main_v30_apply, Read.val_main_v28_apply, v24_at, v27_at, Read.val_main_v29_apply, idx_v29]
  rfl

theorem attn_eq (x0 x1 : (⟨S4x8x2048x64, .f32⟩ : BufTy).Contents (Elt Ideal)) (x3 x4 : (⟨S4x1x2048x2048, .f32⟩ : BufTy).Contents (Elt Ideal)) (x5 : (⟨S1x1x2048x2048, .f32⟩ : BufTy).Contents (Elt Ideal)) (x6 : (⟨S4x1x2048x2048, .f32⟩ : BufTy).Contents (Elt Ideal)) :
    Cert.ReferenceIdeal.Read.val_main_v30 (F := Ideal) x0 x1 x3 x4 x5 x6 = Cert.Attn.attnRArr x0 x1 x3 x4 x5 x6 := by
  funext i
  obtain ⟨b, h, r, j, rfl⟩ : ∃ (b : Fin 4) (h : Fin 8) (r j : Fin 2048), i = ix4 b h r j := ⟨i 0, i 1, i 2, i 3, eq_ix4 i⟩
  rw [v30_at]
  rfl

theorem lidx_v31 (b : Fin 4) (h : Fin 8) (r : Fin 2048) (d : Fin 64) (k : Fin 2048) :
    Read.lidx_main_v31 (ix4 b h r d) k = ix4 b h r k :=
  funext fun a => Fin.ext (by match a with | ⟨0, _⟩ => rfl | ⟨1, _⟩ => rfl | ⟨2, _⟩ => rfl | ⟨3, _⟩ => rfl)

theorem ridx_v31 (b : Fin 4) (h : Fin 8) (r : Fin 2048) (d : Fin 64) (k : Fin 2048) :
    Read.ridx_main_v31 (ix4 b h r d) k = ix4 b h k d :=
  funext fun a => Fin.ext (by match a with | ⟨0, _⟩ => rfl | ⟨1, _⟩ => rfl | ⟨2, _⟩ => rfl | ⟨3, _⟩ => rfl)

theorem out_eq (x0 x1 x2 : (⟨S4x8x2048x64, .f32⟩ : BufTy).Contents (Elt Ideal)) (x3 x4 : (⟨S4x1x2048x2048, .f32⟩ : BufTy).Contents (Elt Ideal)) (x5 : (⟨S1x1x2048x2048, .f32⟩ : BufTy).Contents (Elt Ideal)) (x6 : (⟨S4x1x2048x2048, .f32⟩ : BufTy).Contents (Elt Ideal)) :
    Cert.ReferenceIdeal.Read.val_main_v31 (F := Ideal) x0 x1 x2 x3 x4 x5 x6 = Cert.Attn.outRArr x0 x1 x2 x3 x4 x5 x6 := by
  funext i
  obtain ⟨b, h, r, d, rfl⟩ : ∃ (b : Fin 4) (h : Fin 8) (r : Fin 2048) (d : Fin 64), i = ix4 b h r d :=
    ⟨i 0, i 1, i 2, i 3, eq_ix4 i⟩
  rw [Read.val_main_v31_apply]
  show _ = outR x0 x1 x2 x3 x4 x5 x6 b h r d
  unfold outR
  exact Finset.sum_congr rfl fun k _ => by rw [lidx_v31, ridx_v31, v30_at]

end Cert.Attn.Ref

end
-- ==== Proof.Consts.lean ====
/-
  The float words the two programs spell, as the extended reals they denote: 1, 1/8, 8, zero and the two infinities.
  1/8 and 8 are powers of two, so the word for 1/8 denotes exactly the reciprocal of what the word for 8 denotes.
-/
import Idealize.ShloMosaic.PureOps.Ideal

noncomputable section

namespace Cert.Attn.Consts

open Idealize.ShloMosaic

theorem ofBits_one : Ideal.ofBits .f32 0x3F800000#32 = ((1 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

end Cert.Attn.Consts

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.Algebra.lean ====
/-
  The two spellings of masked, decayed attention agree between finite inputs.

  Three laws join them, each a law of real arithmetic that fails at the infinities, which is why the inputs are taken
  finite. (1) Scaling: (∑_d q_d k_d) · (1/8) = ∑_d (q_d / 8) · k_d — a factor moved across a sum. (2) The double
  complement: 1 - (1 - x) = x — a cancellation. (3) Regrouping: (p · x) · c = p · (x · c), which holds on all extended
  reals. The softmax itself is one function of the row of scores on both sides, so equal scores give equal
  probabilities; the value rows then enter both outputs through the same sum.
-/
import proofs.«130810_j61770219651478_2_alg».proof.Proof.Spec
import proofs.«130810_j61770219651478_2_alg».proof.Proof.Consts
import proofs.«130810_j61770219651478_2_alg».proof.Proof.LibFinite
import proofs.«130810_j61770219651478_2_alg».proof.Proof.LibRealSums

noncomputable section

namespace Cert.Attn

open Idealize.ShloMosaic Idealize.ShloMosaic.ValueIdx Cert.Finite

theorem isReal_one' : IsReal one := ⟨1, Consts.ofBits_one⟩

/-- Scaling the finished inner product by 1/8 is dividing each query entry by 8 first, between finite entries. -/
theorem score_eq (q k : QIdx → EReal) (hq : ∀ x, IsReal (q x)) (hk : ∀ x, IsReal (k x))
    (b : Fin 4) (h : Fin 8) (i j : Fin 2048) : scoreK q k b h i j = scoreR q k b h i j := by
  have hq' : ∀ x, ∃ r : ℝ, q x = (r : EReal) := hq
  have hk' : ∀ x, ∃ r : ℝ, k x = (r : EReal) := hk
  choose a ha using hq'
  choose c hc using hk'
  unfold scoreK scoreR
  simp only [ha, hc, eighth, eight, Consts.ofBits_eighth, Consts.ofBits_eight,
    Ideal.div_coe (by norm_num : (8 : ℝ) ≠ 0), ← EReal.coe_mul, ← Cert.RealSums.coe_sum]
  congr 1
  rw [Finset.sum_mul]
  exact Finset.sum_congr rfl fun d _ => by ring

/-- The complement of the complement of a finite value is the value. -/
theorem compl_compl_of_isReal {x : EReal} (hx : IsReal x) : one - (one - x) = x := by
  obtain ⟨r, rfl⟩ := hx
  simp only [one, Consts.ofBits_one, ← EReal.coe_sub]
  congr 1
  ring

/-- The keep factor of finite masks is finite. -/
theorem isReal_keepR (mp ms : WIdx → EReal) (mc : CIdx → EReal) (hmp : ∀ x, IsReal (mp x)) (hms : ∀ x, IsReal (ms x))
    (hmc : ∀ x, IsReal (mc x)) (b : Fin 4) (i j : Fin 2048) : IsReal (keepR mp ms mc b i j) :=
  ((isReal_one'.sub (hmp _)).mul (isReal_one'.sub (hms _))).mul (isReal_one'.sub (hmc _))

/-- THE LAW: one probability array, in both spellings, between finite queries, keys and masks. -/
theorem attnK_eq_attnR (q k : QIdx → EReal) (mp ms : WIdx → EReal) (mc : CIdx → EReal) (dc : WIdx → EReal)
    (hq : ∀ x, IsReal (q x)) (hk : ∀ x, IsReal (k x)) (hmp : ∀ x, IsReal (mp x)) (hms : ∀ x, IsReal (ms x))
    (hmc : ∀ x, IsReal (mc x)) (b : Fin 4) (h : Fin 8) (i j : Fin 2048) :
    attnK q k mp ms mc dc b h i j = attnR q k mp ms mc dc b h i j := by
  have hs : scoreK q k b h i = scoreR q k b h i := funext fun j' => score_eq q k hq hk b h i j'
  unfold attnK attnR weightK
  rw [hs, compl_compl_of_isReal (isReal_keepR mp ms mc hmp hms hmc b i j)]
  unfold keepR
  exact (mul_assoc _ _ _).symm

theorem attnKArr_eq_attnRArr (q k : QIdx → EReal) (mp ms : WIdx → EReal) (mc : CIdx → EReal) (dc : WIdx → EReal)
    (hq : ∀ x, IsReal (q x)) (hk : ∀ x, IsReal (k x)) (hmp : ∀ x, IsReal (mp x)) (hms : ∀ x, IsReal (ms x))
    (hmc : ∀ x, IsReal (mc x)) : attnKArr q k mp ms mc dc = attnRArr q k mp ms mc dc :=
  funext fun x => attnK_eq_attnR q k mp ms mc dc hq hk hmp hms hmc (x 0) (x 1) (x 2) (x 3)

theorem outKArr_eq_outRArr (q k v : QIdx → EReal) (mp ms : WIdx → EReal) (mc : CIdx → EReal) (dc : WIdx → EReal)
    (hq : ∀ x, IsReal (q x)) (hk : ∀ x, IsReal (k x)) (hmp : ∀ x, IsReal (mp x)) (hms : ∀ x, IsReal (ms x))
    (hmc : ∀ x, IsReal (mc x)) : outKArr q k v mp ms mc dc = outRArr q k v mp ms mc dc :=
  funext fun x => by
    show outK q k v mp ms mc dc (x 0) (x 1) (x 2) (x 3) = outR q k v mp ms mc dc (x 0) (x 1) (x 2) (x 3)
    unfold outK outR
    exact Finset.sum_congr rfl fun j _ => by
      rw [attnK_eq_attnR q k mp ms mc dc hq hk hmp hms hmc (x 0) (x 1) (x 2) j]

end Cert.Attn

end
-- ==== Proof.FiniteInputs.lean ====
/-
  The precondition says every entry of every input is a finite real.

  The precondition is the conjunction, over the seven inputs, of "all entries x satisfy |x| < +∞". A conjunction of
  one-bit words is 1 only when each is; an "all" over an array is 1 only when every entry's bit is; and |x| < +∞
  on the extended reals, with |x| = max x (-x), fails at both infinities, so it holds only of the casts of reals.
-/
import proofs.«130810_j61770219651478_2_alg».proof.Pre_finite_inputs
import proofs.«130810_j61770219651478_2_alg».proof.Proof.LibFinite
import proofs.«130810_j61770219651478_2_alg».proof.Proof.Consts
import Idealize.ShloMosaic.Lib.ReduceAll
import Idealize.ShloMosaic.Lib.ValueIdx
import Idealize.ShloMosaic.Lib.Pipeline.Value
import Idealize.ShloMosaic.PureOps.Ideal

noncomputable section

namespace Cert.Attn.FiniteInputs

open Idealize.ShloMosaic Cert.Finite
open Cert.Pre_finite_inputs

/-- An extended real whose absolute value max y (-y) is below +∞ is the cast of a real: at either infinity the
    absolute value is +∞ itself. -/
theorem isReal_of_abs_lt_top (y : EReal) (h : Ideal.cmp .olt (max y (-y)) ⊤ = 1#1) : IsReal y := by
  induction y using EReal.rec with
  | bot => simp [Ideal.cmp] at h
  | coe r => exact ⟨r, rfl⟩
  | top => simp [Ideal.cmp] at h

/-- One input: if "all entries have |x| < +∞" came out true, every entry is the cast of a real. -/
theorem isReal_of_all {s : Shape} {axes : List (Fin s.rank)} (a : FVec Ideal s .f32)
    (dims : Fin (⟨0, ![]⟩ : Shape).rank → Fin s.rank) (hb : (⟨0, ![]⟩ : Shape).BroadcastsInDim s dims)
    (hr : s.ReducesTo axes (⟨0, ![]⟩ : Shape)) (hu : 0 < (⟨0, ![]⟩ : Shape).numel)
    (e : Host.reduce IntOp.andi
        (cmpf .olt (Host.absf a) (broadcastInDim s dims hb (constant (F := Ideal) (⟨0, ![]⟩ : Shape) .f32 0x7F800000#32)))
        (constantI (⟨0, ![]⟩ : Shape) 1 1#1) hr hu ValueIdx.ix0 = 1#1) (x : s.Idx) : IsReal (a x) := by
  haveI : Subsingleton (⟨0, ![]⟩ : Shape).Idx := ⟨fun p q => funext fun d => d.elim0⟩
  have h1 := Host.reduce_andi_all _ _ hr hu ValueIdx.ix0 e x
  have h2 : broadcastInDim s dims hb (constant (F := Ideal) (⟨0, ![]⟩ : Shape) .f32 0x7F800000#32) x = ⊤ :=
    (broadcastInDim_apply dims hb _ x ValueIdx.ix0 (fun d => d.elim0)).trans Cert.Attn.Consts.ofBits_posInf
  have h3 : Ideal.cmp .olt (max (a x) (-(a x))) ⊤ = 1#1 := by
    rw [← h2]; exact h1
  exact isReal_of_abs_lt_top (a x) h3

theorem isReal_of_pre [Cert.Pre_finite_inputs.Facts]
    (a0 a1 a2 : FVec Ideal S4x8x2048x64 .f32) (a3 a4 : FVec Ideal S4x1x2048x2048 .f32) (a5 : FVec Ideal S1x1x2048x2048 .f32) (a6 : FVec Ideal S4x1x2048x2048 .f32)
    (h : Cert.Pre_finite_inputs.fn (F := Ideal) a0 a1 a2 a3 a4 a5 a6 = fun _ => 1#1) :
    (∀ x, IsReal (a0 x)) ∧ (∀ x, IsReal (a1 x)) ∧ (∀ x, IsReal (a2 x)) ∧ (∀ x, IsReal (a3 x)) ∧ (∀ x, IsReal (a4 x)) ∧ (∀ x, IsReal (a5 x)) ∧ (∀ x, IsReal (a6 x)) := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all a0 _ _ _ _ e0, isReal_of_all a1 _ _ _ _ e1, isReal_of_all a2 _ _ _ _ e2,
    isReal_of_all a3 _ _ _ _ e3, isReal_of_all a4 _ _ _ _ e4, isReal_of_all a5 _ _ _ _ e5, isReal_of_all a6 _ _ _ _ e6⟩

end Cert.Attn.FiniteInputs

end
-- ==== Proof.lean ====
/-
  Masked, decayed scaled-dot-product attention: the kernel against its reference, over the extended reals.

  Both programs compute, for every batch b, head h and query row i, the softmax over the 2048 key rows of
  ⟨q_i, k_j⟩ / 8, multiply each probability by (1 - pad)(1 - sub)(1 - causal) and by a decay coefficient, return that
  [4, 8, 2048, 2048] array, and return its product with the value rows. They differ in three places, each a law of real
  arithmetic that fails at the infinities, so the claim is proved for finite inputs, which the precondition gives:
  the kernel multiplies the finished inner product by 1/8 where the reference divides the query by 8 first; the
  reference passes through the complement 1 - (1 - keep); and the kernel folds keep · decay into one weight before the
  launch where the reference multiplies by them one after the other. The reference's extra max(-∞, ·) and 0 + ∑ are
  identities.

  The kernel's side: each grid point (batch, row block of 256 query rows, head) writes back one block of each result;
  the stored values are read as pure functions of the point's input blocks, the blocks are restrictions of the whole
  arrays, and the 256 points' blocks tile both results (Proof/Pieces, Payload, Point, GridFacts, Cover, Blocks; the
  weight the host computes before the launch in Proof/WeightAt, HostWeight). The reference's side: its forty-one host
  operations read one at a time (Proof/RefSpec). The law between the two spellings: Proof/Algebra, with finiteness of
  the inputs from the precondition in Proof/FiniteInputs. The ideal pass rewrote nothing, so the idealization claim is
  trivial; the three frames are the generated ones.
-/
import proofs.«130810_j61770219651478_2_alg».proof.Defs
import proofs.«130810_j61770219651478_2_alg».proof.Proof.Gen.Kernel
import proofs.«130810_j61770219651478_2_alg».proof.Proof.Gen.Kernel.Skeleton
import proofs.«130810_j61770219651478_2_alg».proof.Proof.Gen.Kernel.Launch
import proofs.«130810_j61770219651478_2_alg».proof.Proof.Gen.Kernel.Points
import proofs.«130810_j61770219651478_2_alg».proof.Proof.Gen.Kernel.Frame
import proofs.«130810_j61770219651478_2_alg».proof.Proof.Gen.KernelIdeal
import proofs.«130810_j61770219651478_2_alg».proof.Proof.Gen.KernelIdeal.Skeleton
import proofs.«130810_j61770219651478_2_alg».proof.Proof.Gen.KernelIdeal.Launch
import proofs.«130810_j61770219651478_2_alg».proof.Proof.Gen.KernelIdeal.Points
import proofs.«130810_j61770219651478_2_alg».proof.Proof.Gen.KernelIdeal.Frame
import proofs.«130810_j61770219651478_2_alg».proof.Proof.Gen.ReferenceIdeal
import proofs.«130810_j61770219651478_2_alg».proof.Proof.Gen.Pre_finite_inputs
import proofs.«130810_j61770219651478_2_alg».proof.Proof.Gen.KernelIdeal.Value
import proofs.«130810_j61770219651478_2_alg».proof.Proof.Gen.ReferenceIdeal.Run
import proofs.«130810_j61770219651478_2_alg».proof.Proof.Gen.ReferenceIdeal.Read
import proofs.«130810_j61770219651478_2_alg».proof.Proof.Blocks
import proofs.«130810_j61770219651478_2_alg».proof.Proof.RefSpec
import proofs.«130810_j61770219651478_2_alg».proof.Proof.Algebra
import proofs.«130810_j61770219651478_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- The kernel's two results are the specification's first spelling of the arguments (Proof/Blocks), the reference's
    its second spelling (Proof/RefSpec); between finite queries, keys and masks the two spellings are one function
    (Proof/Algebra), and the precondition says the inputs are finite (Proof/FiniteInputs). -/
theorem algebraic : Cert.algebraic_KernelIdeal_ReferenceIdeal := by
  intro m ρ m' ρ' hpre hagree
  refine ⟨_, _, Cert.Attn.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hq, hk, -, hmp, hms, hmc, -⟩ := Cert.Attn.FiniteInputs.isReal_of_pre _ _ _ _ _ _ _ (hpre c)
    rw [Cert.ReferenceIdeal.Read.val_main_v31_eq, Cert.Attn.Ref.out_eq,
      (hagree c).1, (hagree c).2.1, (hagree c).2.2.1, (hagree c).2.2.2.1, (hagree c).2.2.2.2.1,
      (hagree c).2.2.2.2.2.1, (hagree c).2.2.2.2.2.2]
    exact (Cert.Attn.outKArr_eq_outRArr _ _ _ _ _ _ _ hq hk hmp hms hmc).symm
  · obtain ⟨hq, hk, -, hmp, hms, hmc, -⟩ := Cert.Attn.FiniteInputs.isReal_of_pre _ _ _ _ _ _ _ (hpre c)
    rw [Cert.ReferenceIdeal.Read.val_main_v30_eq, Cert.Attn.Ref.attn_eq,
      (hagree c).1, (hagree c).2.1, (hagree c).2.2.2.1, (hagree c).2.2.2.2.1,
      (hagree c).2.2.2.2.2.1, (hagree c).2.2.2.2.2.2]
    exact (Cert.Attn.attnKArr_eq_attnRArr _ _ _ _ _ _ hq hk hmp hms hmc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
